-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.sign_bit.Statement Cert.KernelIdeal.S8x8x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x192x64x64 : Shape := ⟨4, ![8, 192, 64, 64]⟩
abbrev S192x3x1 : Shape := ⟨3, ![192, 3, 1]⟩
abbrev S192x3x3 : Shape := ⟨3, ![192, 3, 3]⟩
abbrev S192x1x3 : Shape := ⟨3, ![192, 1, 3]⟩
abbrev S192x1x1 : Shape := ⟨3, ![192, 1, 1]⟩
abbrev S_ : Shape := ⟨0, ![]⟩

class Facts : Prop where
  bcast_S_S8x192x64x64 : S_.BroadcastsInDim S8x192x64x64 (![] : Fin 0 → Fin S8x192x64x64.rank)
  reducesTo_S8x192x64x64_S_d0_1_2_3 : S8x192x64x64.ReducesTo [0, 1, 2, 3] S_
  h_S_ : 0 < S_.numel
  bcast_S_S192x3x1 : S_.BroadcastsInDim S192x3x1 (![] : Fin 0 → Fin S192x3x1.rank)
  reducesTo_S192x3x1_S_d0_1_2 : S192x3x1.ReducesTo [0, 1, 2] S_
  bcast_S_S192x3x3 : S_.BroadcastsInDim S192x3x3 (![] : Fin 0 → Fin S192x3x3.rank)
  reducesTo_S192x3x3_S_d0_1_2 : S192x3x3.ReducesTo [0, 1, 2] S_
  bcast_S_S192x1x3 : S_.BroadcastsInDim S192x1x3 (![] : Fin 0 → Fin S192x1x3.rank)
  reducesTo_S192x1x3_S_d0_1_2 : S192x1x3.ReducesTo [0, 1, 2] S_
  bcast_S_S192x1x1 : S_.BroadcastsInDim S192x1x1 (![] : Fin 0 → Fin S192x1x1.rank)
  reducesTo_S192x1x1_S_d0_1_2 : S192x1x1.ReducesTo [0, 1, 2] S_

variable [Facts]

def fn_part3 {F : FTy → Type} [FloatOps F] (main_arg11 : FVec F S192x1x3 .f32) (main_arg12 : FVec F S192x1x1 .f32) (main_v48 : IVec S_ 1) (main_v49 : FVec F S192x3x1 .f32) (main_v50 : FVec F S192x3x1 .f32) : IVec S_ 1 :=
  let main_v51 : IVec S192x3x1 1 := cmpf .olt main_v49 main_v50
  let main_c_19 : IVec S_ 1 := constantI S_ 1 1#1
  let main_v52 : IVec S_ 1 := (fun x v => Host.reduce IntOp.andi x v reducesTo_S192x3x1_S_d0_1_2 h_S_) main_v51 main_c_19
  let main_v53 : IVec S_ 1 := andi main_v48 main_v52
  let main_v54 : FVec F S192x1x3 .f32 := Host.absf main_arg11
  let main_cst_20 : FVec F S_ .f32 := constant S_ .f32 0x7F800000#32
  let main_v55 : FVec F S192x1x3 .f32 := broadcastInDim S192x1x3 ![] bcast_S_S192x1x3 main_cst_20
  let main_v56 : IVec S192x1x3 1 := cmpf .olt main_v54 main_v55
  let main_c_21 : IVec S_ 1 := constantI S_ 1 1#1
  let main_v57 : IVec S_ 1 := (fun x v => Host.reduce IntOp.andi x v reducesTo_S192x1x3_S_d0_1_2 h_S_) main_v56 main_c_21
  let main_v58 : IVec S_ 1 := andi main_v53 main_v57
  let main_v59 : FVec F S192x1x1 .f32 := Host.absf main_arg12
  let main_cst_22 : FVec F S_ .f32 := constant S_ .f32 0x7F800000#32
  let main_v60 : FVec F S192x1x1 .f32 := broadcastInDim S192x1x1 ![] bcast_S_S192x1x1 main_cst_22
  let main_v61 : IVec S192x1x1 1 := cmpf .olt main_v59 main_v60
  let main_c_23 : IVec S_ 1 := constantI S_ 1 1#1
  let main_v62 : IVec S_ 1 := (fun x v => Host.reduce IntOp.andi x v reducesTo_S192x1x1_S_d0_1_2 h_S_) main_v61 main_c_23
  let main_v63 : IVec S_ 1 := andi main_v58 main_v62
  main_v63

def fn_part2 {F : FTy → Type} [FloatOps F] (main_arg7 : FVec F S192x3x1 .f32) (main_arg8 : FVec F S192x3x3 .f32) (main_arg9 : FVec F S192x3x1 .f32) (main_arg10 : FVec F S192x3x1 .f32) (main_arg11 : FVec F S192x1x3 .f32) (main_arg12 : FVec F S192x1x1 .f32) (main_v33 : IVec S_ 1) : IVec S_ 1 :=
  let main_v34 : FVec F S192x3x1 .f32 := Host.absf main_arg7
  let main_cst_12 : FVec F S_ .f32 := constant S_ .f32 0x7F800000#32
  let main_v35 : FVec F S192x3x1 .f32 := broadcastInDim S192x3x1 ![] bcast_S_S192x3x1 main_cst_12
  let main_v36 : IVec S192x3x1 1 := cmpf .olt main_v34 main_v35
  let main_c_13 : IVec S_ 1 := constantI S_ 1 1#1
  let main_v37 : IVec S_ 1 := (fun x v => Host.reduce IntOp.andi x v reducesTo_S192x3x1_S_d0_1_2 h_S_) main_v36 main_c_13
  let main_v38 : IVec S_ 1 := andi main_v33 main_v37
  let main_v39 : FVec F S192x3x3 .f32 := Host.absf main_arg8
  let main_cst_14 : FVec F S_ .f32 := constant S_ .f32 0x7F800000#32
  let main_v40 : FVec F S192x3x3 .f32 := broadcastInDim S192x3x3 ![] bcast_S_S192x3x3 main_cst_14
  let main_v41 : IVec S192x3x3 1 := cmpf .olt main_v39 main_v40
  let main_c_15 : IVec S_ 1 := constantI S_ 1 1#1
  let main_v42 : IVec S_ 1 := (fun x v => Host.reduce IntOp.andi x v reducesTo_S192x3x3_S_d0_1_2 h_S_) main_v41 main_c_15
  let main_v43 : IVec S_ 1 := andi main_v38 main_v42
  let main_v44 : FVec F S192x3x1 .f32 := Host.absf main_arg9
  let main_cst_16 : FVec F S_ .f32 := constant S_ .f32 0x7F800000#32
  let main_v45 : FVec F S192x3x1 .f32 := broadcastInDim S192x3x1 ![] bcast_S_S192x3x1 main_cst_16
  let main_v46 : IVec S192x3x1 1 := cmpf .olt main_v44 main_v45
  let main_c_17 : IVec S_ 1 := constantI S_ 1 1#1
  let main_v47 : IVec S_ 1 := (fun x v => Host.reduce IntOp.andi x v reducesTo_S192x3x1_S_d0_1_2 h_S_) main_v46 main_c_17
  let main_v48 : IVec S_ 1 := andi main_v43 main_v47
  let main_v49 : FVec F S192x3x1 .f32 := Host.absf main_arg10
  let main_cst_18 : FVec F S_ .f32 := constant S_ .f32 0x7F800000#32
  let main_v50 : FVec F S192x3x1 .f32 := broadcastInDim S192x3x1 ![] bcast_S_S192x3x1 main_cst_18
  fn_part3 (F := F) main_arg11 main_arg12 main_v48 main_v49 main_v50

def fn_part1 {F : FTy → Type} [FloatOps F] (main_arg4 : FVec F S192x3x1 .f32) (main_arg5 : FVec F S192x3x3 .f32) (main_arg6 : FVec F S192x3x1 .f32) (main_arg7 : FVec F S192x3x1 .f32) (main_arg8 : FVec F S192x3x3 .f32) (main_arg9 : FVec F S192x3x1 .f32) (main_arg10 : FVec F S192x3x1 .f32) (main_arg11 : FVec F S192x1x3 .f32) (main_arg12 : FVec F S192x1x1 .f32) (main_v13 : IVec S_ 1) (main_v16 : IVec S192x3x1 1) : IVec S_ 1 :=
  let main_c_5 : IVec S_ 1 := constantI S_ 1 1#1
  let main_v17 : IVec S_ 1 := (fun x v => Host.reduce IntOp.andi x v reducesTo_S192x3x1_S_d0_1_2 h_S_) main_v16 main_c_5
  let main_v18 : IVec S_ 1 := andi main_v13 main_v17
  let main_v19 : FVec F S192x3x1 .f32 := Host.absf main_arg4
  let main_cst_6 : FVec F S_ .f32 := constant S_ .f32 0x7F800000#32
  let main_v20 : FVec F S192x3x1 .f32 := broadcastInDim S192x3x1 ![] bcast_S_S192x3x1 main_cst_6
  let main_v21 : IVec S192x3x1 1 := cmpf .olt main_v19 main_v20
  let main_c_7 : IVec S_ 1 := constantI S_ 1 1#1
  let main_v22 : IVec S_ 1 := (fun x v => Host.reduce IntOp.andi x v reducesTo_S192x3x1_S_d0_1_2 h_S_) main_v21 main_c_7
  let main_v23 : IVec S_ 1 := andi main_v18 main_v22
  let main_v24 : FVec F S192x3x3 .f32 := Host.absf main_arg5
  let main_cst_8 : FVec F S_ .f32 := constant S_ .f32 0x7F800000#32
  let main_v25 : FVec F S192x3x3 .f32 := broadcastInDim S192x3x3 ![] bcast_S_S192x3x3 main_cst_8
  let main_v26 : IVec S192x3x3 1 := cmpf .olt main_v24 main_v25
  let main_c_9 : IVec S_ 1 := constantI S_ 1 1#1
  let main_v27 : IVec S_ 1 := (fun x v => Host.reduce IntOp.andi x v reducesTo_S192x3x3_S_d0_1_2 h_S_) main_v26 main_c_9
  let main_v28 : IVec S_ 1 := andi main_v23 main_v27
  let main_v29 : FVec F S192x3x1 .f32 := Host.absf main_arg6
  let main_cst_10 : FVec F S_ .f32 := constant S_ .f32 0x7F800000#32
  let main_v30 : FVec F S192x3x1 .f32 := broadcastInDim S192x3x1 ![] bcast_S_S192x3x1 main_cst_10
  let main_v31 : IVec S192x3x1 1 := cmpf .olt main_v29 main_v30
  let main_c_11 : IVec S_ 1 := constantI S_ 1 1#1
  let main_v32 : IVec S_ 1 := (fun x v => Host.reduce IntOp.andi x v reducesTo_S192x3x1_S_d0_1_2 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x192x64x64 .f32) (main_arg1 : FVec F S8x192x64x64 .f32) (main_arg2 : FVec F S192x3x1 .f32) (main_arg3 : FVec F S192x3x1 .f32) (main_arg4 : FVec F S192x3x1 .f32) (main_arg5 : FVec F S192x3x3 .f32) (main_arg6 : FVec F S192x3x1 .f32) (main_arg7 : FVec F S192x3x1 .f32) (main_arg8 : FVec F S192x3x3 .f32) (main_arg9 : FVec F S192x3x1 .f32) (main_arg10 : FVec F S192x3x1 .f32) (main_arg11 : FVec F S192x1x3 .f32) (main_arg12 : FVec F S192x1x1 .f32) : IVec S_ 1 :=
  let main_v0 : FVec F S8x192x64x64 .f32 := Host.absf main_arg0
  let main_cst : FVec F S_ .f32 := constant S_ .f32 0x7F800000#32
  let main_v1 : FVec F S8x192x64x64 .f32 := broadcastInDim S8x192x64x64 ![] bcast_S_S8x192x64x64 main_cst
  let main_v2 : IVec S8x192x64x64 1 := cmpf .olt main_v0 main_v1
  let main_c : IVec S_ 1 := constantI S_ 1 1#1
  let main_v3 : IVec S_ 1 := (fun x v => Host.reduce IntOp.andi x v reducesTo_S8x192x64x64_S_d0_1_2_3 h_S_) main_v2 main_c
  let main_v4 : FVec F S8x192x64x64 .f32 := Host.absf main_arg1
  let main_cst_0 : FVec F S_ .f32 := constant S_ .f32 0x7F800000#32
  let main_v5 : FVec F S8x192x64x64 .f32 := broadcastInDim S8x192x64x64 ![] bcast_S_S8x192x64x64 main_cst_0
  let main_v6 : IVec S8x192x64x64 1 := cmpf .olt main_v4 main_v5
  let main_c_1 : IVec S_ 1 := constantI S_ 1 1#1
  let main_v7 : IVec S_ 1 := (fun x v => Host.reduce IntOp.andi x v reducesTo_S8x192x64x64_S_d0_1_2_3 h_S_) main_v6 main_c_1
  let main_v8 : IVec S_ 1 := andi main_v3 main_v7
  let main_v9 : FVec F S192x3x1 .f32 := Host.absf main_arg2
  let main_cst_2 : FVec F S_ .f32 := constant S_ .f32 0x7F800000#32
  let main_v10 : FVec F S192x3x1 .f32 := broadcastInDim S192x3x1 ![] bcast_S_S192x3x1 main_cst_2
  let main_v11 : IVec S192x3x1 1 := cmpf .olt main_v9 main_v10
  let main_c_3 : IVec S_ 1 := constantI S_ 1 1#1
  let main_v12 : IVec S_ 1 := (fun x v => Host.reduce IntOp.andi x v reducesTo_S192x3x1_S_d0_1_2 h_S_) main_v11 main_c_3
  let main_v13 : IVec S_ 1 := andi main_v8 main_v12
  let main_v14 : FVec F S192x3x1 .f32 := Host.absf main_arg3
  let main_cst_4 : FVec F S_ .f32 := constant S_ .f32 0x7F800000#32
  let main_v15 : FVec F S192x3x1 .f32 := broadcastInDim S192x3x1 ![] bcast_S_S192x3x1 main_cst_4
  let main_v16 : IVec S192x3x1 1 := cmpf .olt main_v14 main_v15
  fn_part1 (F := F) main_arg4 main_arg5 main_arg6 main_arg7 main_arg8 main_arg9 main_arg10 main_arg11 main_arg12 main_v13 main_v16
-- ==== Kernel.lean ====
abbrev S8x192x64x64 : Shape := ⟨4, ![8, 192, 64, 64]⟩
abbrev S192x3x1 : Shape := ⟨3, ![192, 3, 1]⟩
abbrev S192x3x3 : Shape := ⟨3, ![192, 3, 3]⟩
abbrev S192x1x3 : Shape := ⟨3, ![192, 1, 3]⟩
abbrev S192x1x1 : Shape := ⟨3, ![192, 1, 1]⟩
abbrev S_ : Shape := ⟨0, ![]⟩
abbrev S8x192x4096 : Shape := ⟨3, ![8, 192, 4096]⟩
abbrev S8x8x4096 : Shape := ⟨3, ![8, 8, 4096]⟩
abbrev S8x3x1 : Shape := ⟨3, ![8, 3, 1]⟩
abbrev S8x3x3 : Shape := ⟨3, ![8, 3, 3]⟩
abbrev S8x1x3 : Shape := ⟨3, ![8, 1, 3]⟩
abbrev S8x1x1 : Shape := ⟨3, ![8, 1, 1]⟩
abbrev S8 : Shape := ⟨1, ![8]⟩
abbrev S1x8x1 : Shape := ⟨3, ![1, 8, 1]⟩

abbrev nBuf : Space → Nat
  | .hbm => 78
  | .vmem => 30
  | .smem => 0
  | _ => 0

abbrev bufTy : (tb : Table) → Fin (tcTables nBuf tb) → BufTy
  | .hbm, ⟨0, _⟩ => ⟨S8x192x64x64, .f32⟩
  | .hbm, ⟨1, _⟩ => ⟨S8x192x64x64, .f32⟩
  | .hbm, ⟨2, _⟩ => ⟨S192x3x1, .f32⟩
  | .hbm, ⟨3, _⟩ => ⟨S192x3x1, .f32⟩
  | .hbm, ⟨4, _⟩ => ⟨S192x3x1, .f32⟩
  | .hbm, ⟨5, _⟩ => ⟨S192x3x3, .f32⟩
  | .hbm, ⟨6, _⟩ => ⟨S192x3x1, .f32⟩
  | .hbm, ⟨7, _⟩ => ⟨S192x3x1, .f32⟩
  | .hbm, ⟨8, _⟩ => ⟨S192x3x3, .f32⟩
  | .hbm, ⟨9, _⟩ => ⟨S192x3x1, .f32⟩
  | .hbm, ⟨10, _⟩ => ⟨S192x3x1, .f32⟩
  | .hbm, ⟨11, _⟩ => ⟨S192x1x3, .f32⟩
  | .hbm, ⟨12, _⟩ => ⟨S192x1x1, .f32⟩
  | .hbm, ⟨13, _⟩ => ⟨S_, .f32⟩
  | .hbm, ⟨14, _⟩ => ⟨S192x3x1, .f32⟩
  | .hbm, ⟨15, _⟩ => ⟨S192x3x1, .f32⟩
  | .hbm, ⟨16, _⟩ => ⟨S192x3x1, .f32⟩
  | .hbm, ⟨17, _⟩ => ⟨S192x3x1, .f32⟩
  | .hbm, ⟨18, _⟩ => ⟨S192x3x1, .i1⟩
  | .hbm, ⟨19, _⟩ => ⟨S192x3x1, .f32⟩
  | .hbm, ⟨20, _⟩ => ⟨S192x3x1, .f32⟩
  | .hbm, ⟨21, _⟩ => ⟨S192x3x1, .f32⟩
  | .hbm, ⟨22, _⟩ => ⟨S192x3x1, .f32⟩
  | .hbm, ⟨23, _⟩ => ⟨S192x3x1, .f32⟩
  | .hbm, ⟨24, _⟩ => ⟨S192x3x1, .f32⟩
  | .hbm, ⟨25, _⟩ => ⟨S192x3x1, .f32⟩
  | .hbm, ⟨26, _⟩ => ⟨S192x3x1, .f32⟩
  | .hbm, ⟨27, _⟩ => ⟨S_, .f32⟩
  | .hbm, ⟨28, _⟩ => ⟨S192x3x3, .f32⟩
  | .hbm, ⟨29, _⟩ => ⟨S192x3x3, .f32⟩
  | .hbm, ⟨30, _⟩ => ⟨S192x3x3, .f32⟩
  | .hbm, ⟨31, _⟩ => ⟨S192x3x3, .f32⟩
  | .hbm, ⟨32, _⟩ => ⟨S192x3x3, .i1⟩
  | .hbm, ⟨33, _⟩ => ⟨S192x3x3, .f32⟩
  | .hbm, ⟨34, _⟩ => ⟨S192x3x3, .f32⟩
  | .hbm, ⟨35, _⟩ => ⟨S192x3x3, .f32⟩
  | .hbm, ⟨36, _⟩ => ⟨S192x3x3, .f32⟩
  | .hbm, ⟨37, _⟩ => ⟨S192x3x3, .f32⟩
  | .hbm, ⟨38, _⟩ => ⟨S192x3x3, .f32⟩
  | .hbm, ⟨39, _⟩ => ⟨S192x3x3, .f32⟩
  | .hbm, ⟨40, _⟩ => ⟨S192x3x3, .f32⟩
  | .hbm, ⟨41, _⟩ => ⟨S_, .f32⟩
  | .hbm, ⟨42, _⟩ => ⟨S192x3x3, .f32⟩
  | .hbm, ⟨43, _⟩ => ⟨S192x3x3, .f32⟩
  | .hbm, ⟨44, _⟩ => ⟨S192x3x3, .f32⟩
  | .hbm, ⟨45, _⟩ => ⟨S192x3x3, .f32⟩
  | .hbm, ⟨46, _⟩ => ⟨S192x3x3, .i1⟩
  | .hbm, ⟨47, _⟩ => ⟨S192x3x3, .f32⟩
  | .hbm, ⟨48, _⟩ => ⟨S192x3x3, .f32⟩
  | .hbm, ⟨49, _⟩ => ⟨S192x3x3, .f32⟩
  | .hbm, ⟨50, _⟩ => ⟨S192x3x3, .f32⟩
  | .hbm, ⟨51, _⟩ => ⟨S192x3x3, .f32⟩
  | .hbm, ⟨52, _⟩ => ⟨S192x3x3, .f32⟩
  | .hbm, ⟨53, _⟩ => ⟨S192x3x3, .f32⟩
  | .hbm, ⟨54, _⟩ => ⟨S192x3x3, .f32⟩
  | .hbm, ⟨55, _⟩ => ⟨S_, .f32⟩
  | .hbm, ⟨56, _⟩ => ⟨S192x1x3, .f32⟩
  | .hbm, ⟨57, _⟩ => ⟨S192x1x3, .f32⟩
  | .hbm, ⟨58, _⟩ => ⟨S192x1x3, .f32⟩
  | .hbm, ⟨59, _⟩ => ⟨S192x1x3, .f32⟩
  | .hbm, ⟨60, _⟩ => ⟨S192x1x3, .i1⟩
  | .hbm, ⟨61, _⟩ => ⟨S192x1x3, .f32⟩
  | .hbm, ⟨62, _⟩ => ⟨S192x1x3, .f32⟩
  | .hbm, ⟨63, _⟩ => ⟨S192x1x3, .f32⟩
  | .hbm, ⟨64, _⟩ => ⟨S192x1x3, .f32⟩
  | .hbm, ⟨65, _⟩ => ⟨S192x1x3, .f32⟩
  | .hbm, ⟨66, _⟩ => ⟨S192x1x3, .f32⟩
  | .hbm, ⟨67, _⟩ => ⟨S192x1x3, .f32⟩
  | .hbm, ⟨68, _⟩ => ⟨S192x1x3, .f32⟩
  | .hbm, ⟨69, _⟩ => ⟨S192x3x1, .f32⟩
  | .hbm, ⟨70, _⟩ => ⟨S192x3x1, .f32⟩
  | .hbm, ⟨71, _⟩ => ⟨S192x3x1, .f32⟩
  | .hbm, ⟨72, _⟩ => ⟨S8x192x4096, .f32⟩
  | .hbm, ⟨73, _⟩ => ⟨S8x192x4096, .f32⟩
  | .hbm, ⟨74, _⟩ => ⟨S8x192x4096, .f32⟩
  | .hbm, ⟨75, _⟩ => ⟨S8x192x4096, .f32⟩
  | .hbm, ⟨76, _⟩ => ⟨S8x192x64x64, .f32⟩
  | .hbm, ⟨77, _⟩ => ⟨S8x192x64x64, .f32⟩
  | .local _ .vmem, ⟨0, _⟩ => ⟨S8x8x4096, .f32⟩
  | .local _ .vmem, ⟨1, _⟩ => ⟨S8x8x4096, .f32⟩
  | .local _ .vmem, ⟨2, _⟩ => ⟨S8x8x4096, .f32⟩
  | .local _ .vmem, ⟨3, _⟩ => ⟨S8x8x4096, .f32⟩
  | .local _ .vmem, ⟨4, _⟩ => ⟨S8x3x1, .f32⟩
  | .local _ .vmem, ⟨5, _⟩ => ⟨S8x3x1, .f32⟩
  | .local _ .vmem, ⟨6, _⟩ => ⟨S8x3x1, .f32⟩
  | .local _ .vmem, ⟨7, _⟩ => ⟨S8x3x1, .f32⟩
  | .local _ .vmem, ⟨8, _⟩ => ⟨S8x3x1, .f32⟩
  | .local _ .vmem, ⟨9, _⟩ => ⟨S8x3x1, .f32⟩
  | .local _ .vmem, ⟨10, _⟩ => ⟨S8x3x3, .f32⟩
  | .local _ .vmem, ⟨11, _⟩ => ⟨S8x3x3, .f32⟩
  | .local _ .vmem, ⟨12, _⟩ => ⟨S8x3x1, .f32⟩
  | .local _ .vmem, ⟨13, _⟩ => ⟨S8x3x1, .f32⟩
  | .local _ .vmem, ⟨14, _⟩ => ⟨S8x3x1, .f32⟩
  | .local _ .vmem, ⟨15, _⟩ => ⟨S8x3x1, .f32⟩
  | .local _ .vmem, ⟨16, _⟩ => ⟨S8x3x3, .f32⟩
  | .local _ .vmem, ⟨17, _⟩ => ⟨S8x3x3, .f32⟩
  | .local _ .vmem, ⟨18, _⟩ => ⟨S8x3x1, .f32⟩
  | .local _ .vmem, ⟨19, _⟩ => ⟨S8x3x1, .f32⟩
  | .local _ .vmem, ⟨20, _⟩ => ⟨S8x3x1, .f32⟩
  | .local _ .vmem, ⟨21, _⟩ => ⟨S8x3x1, .f32⟩
  | .local _ .vmem, ⟨22, _⟩ => ⟨S8x1x3, .f32⟩
  | .local _ .vmem, ⟨23, _⟩ => ⟨S8x1x3, .f32⟩
  | .local _ .vmem, ⟨24, _⟩ => ⟨S8x1x1, .f32⟩
  | .local _ .vmem, ⟨25, _⟩ => ⟨S8x1x1, .f32⟩
  | .local _ .vmem, ⟨26, _⟩ => ⟨S8x8x4096, .f32⟩
  | .local _ .vmem, ⟨27, _⟩ => ⟨S8x8x4096, .f32⟩
  | .local _ .vmem, ⟨28, _⟩ => ⟨S8x8x4096, .f32⟩
  | .local _ .vmem, ⟨29, _⟩ => ⟨S8x8x4096, .f32⟩
  | _, _ => ⟨S8x192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v0 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_v1 : Ref sig .tc := ⟨.hbm, 40, rfl⟩
abbrev main_call2_cst : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_v2 : Ref sig .tc := ⟨.hbm, 54, rfl⟩
abbrev main_call3_cst : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_v3 : Ref sig .tc := ⟨.hbm, 68, rfl⟩
abbrev main_v4 : Ref sig .tc := ⟨.hbm, 69, rfl⟩
abbrev main_v5 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_v9_0 : Ref sig .tc := ⟨.hbm, 74, rfl⟩
abbrev main_v9_1 : Ref sig .tc := ⟨.hbm, 75, rfl⟩
abbrev main_v10 : Ref sig .tc := ⟨.hbm, 76, rfl⟩
abbrev main_v11 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [BitOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x3x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x3x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x3x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x3x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x3x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x3x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x3x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x8x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x8x4096 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S192x3x1 : S_.BroadcastsInDim S192x3x1 (![] : Fin 0 → Fin S192x3x1.rank)
  bcast_S_S192x3x3 : S_.BroadcastsInDim S192x3x3 (![] : Fin 0 → Fin S192x3x3.rank)
  bcast_S_S192x1x3 : S_.BroadcastsInDim S192x1x3 (![] : Fin 0 → Fin S192x1x3.rank)
  shapeCasts_S8x192x64x64_S8x192x4096 : S8x192x64x64.ShapeCasts S8x192x4096
  inb_S8x8x4096_S8x8x4096_0_0_0 : ∀ a, (![0, 0, 0] : Fin 3 → Nat) a + S8x8x4096.size a ≤ S8x8x4096.size a
  h_S8x8x4096 : 0 < S8x8x4096.numel
  shapeCasts_S8x8x4096_S8x8x4096 : S8x8x4096.ShapeCasts S8x8x4096
  inb_S8x3x1_S8x3x1_0_0_0 : ∀ a, (![0, 0, 0] : Fin 3 → Nat) a + S8x3x1.size a ≤ S8x3x1.size a
  h_S8x3x1 : 0 < S8x3x1.numel
  shapeCasts_S8x3x1_S8x3x1 : S8x3x1.ShapeCasts S8x3x1
  inb_S8x3x3_S8x3x3_0_0_0 : ∀ a, (![0, 0, 0] : Fin 3 → Nat) a + S8x3x3.size a ≤ S8x3x3.size a
  h_S8x3x3 : 0 < S8x3x3.numel
  shapeCasts_S8x3x3_S8x3x3 : S8x3x3.ShapeCasts S8x3x3
  inb_S8x1x3_S8x1x3_0_0_0 : ∀ a, (![0, 0, 0] : Fin 3 → Nat) a + S8x1x3.size a ≤ S8x1x3.size a
  h_S8x1x3 : 0 < S8x1x3.numel
  shapeCasts_S8x1x3_S8x1x3 : S8x1x3.ShapeCasts S8x1x3
  inb_S8x1x1_S8x1x1_0_0_0 : ∀ a, (![0, 0, 0] : Fin 3 → Nat) a + S8x1x1.size a ≤ S8x1x1.size a
  h_S8x1x1 : 0 < S8x1x1.numel
  slices_S8x3x1_o0_0_0_S8x1x1 : S8x3x1.Slices ![0, 0, 0] S8x1x1
  shapeCasts_S8x1x1_S8 : S8x1x1.ShapeCasts S8
  shapeCasts_S8_S1x8x1 : S8.ShapeCasts S1x8x1
  slices_S8x3x1_o0_1_0_S8x1x1 : S8x3x1.Slices ![0, 1, 0] S8x1x1
  slices_S8x3x1_o0_2_0_S8x1x1 : S8x3x1.Slices ![0, 2, 0] S8x1x1
  slices_S8x3x3_o0_0_0_S8x1x1 : S8x3x3.Slices ![0, 0, 0] S8x1x1
  slices_S8x3x3_o0_0_1_S8x1x1 : S8x3x3.Slices ![0, 0, 1] S8x1x1
  slices_S8x3x3_o0_0_2_S8x1x1 : S8x3x3.Slices ![0, 0, 2] S8x1x1
  slices_S8x3x3_o0_1_0_S8x1x1 : S8x3x3.Slices ![0, 1, 0] S8x1x1
  slices_S8x3x3_o0_1_1_S8x1x1 : S8x3x3.Slices ![0, 1, 1] S8x1x1
  slices_S8x3x3_o0_1_2_S8x1x1 : S8x3x3.Slices ![0, 1, 2] S8x1x1
  slices_S8x3x3_o0_2_0_S8x1x1 : S8x3x3.Slices ![0, 2, 0] S8x1x1
  slices_S8x3x3_o0_2_1_S8x1x1 : S8x3x3.Slices ![0, 2, 1] S8x1x1
  slices_S8x3x3_o0_2_2_S8x1x1 : S8x3x3.Slices ![0, 2, 2] S8x1x1
  slices_S8x1x3_o0_0_0_S8x1x1 : S8x1x3.Slices ![0, 0, 0] S8x1x1
  slices_S8x1x3_o0_0_1_S8x1x1 : S8x1x3.Slices ![0, 0, 1] S8x1x1
  slices_S8x1x3_o0_0_2_S8x1x1 : S8x1x3.Slices ![0, 0, 2] S8x1x1
  broadcasts_S1x8x1_S8x8x4096 : S1x8x1.Broadcasts S8x8x4096
  shapeCasts_S8x192x4096_S8x192x64x64 : S8x192x4096.ShapeCasts S8x192x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x4096.size a ≤ S8x192x4096.size a
  hwx0_0 : ∀ i : grid0.Coords, EltTy.bits .f32 = 32 ∨ (Rect.block (s := S8x192x4096) S8x8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x4096.size a ≤ S8x192x4096.size a
  hwx0_1 : ∀ i : grid0.Coords, EltTy.bits .f32 = 32 ∨ (Rect.block (s := S8x192x4096) S8x8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3x1.size a ≤ S192x3x1.size a
  hwx0_2 : ∀ i : grid0.Coords, EltTy.bits .f32 = 32 ∨ (Rect.block (s := S192x3x1) S8x3x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x3x1.size a ≤ S192x3x1.size a
  hwx0_3 : ∀ i : grid0.Coords, EltTy.bits .f32 = 32 ∨ (Rect.block (s := S192x3x1) S8x3x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x3x1.size a ≤ S192x3x1.size a
  hwx0_4 : ∀ i : grid0.Coords, EltTy.bits .f32 = 32 ∨ (Rect.block (s := S192x3x1) S8x3x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x3x3.size a ≤ S192x3x3.size a
  hwx0_5 : ∀ i : grid0.Coords, EltTy.bits .f32 = 32 ∨ (Rect.block (s := S192x3x3) S8x3x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x3x1.size a ≤ S192x3x1.size a
  hwx0_6 : ∀ i : grid0.Coords, EltTy.bits .f32 = 32 ∨ (Rect.block (s := S192x3x1) S8x3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x3x1.size a ≤ S192x3x1.size a
  hwx0_7 : ∀ i : grid0.Coords, EltTy.bits .f32 = 32 ∨ (Rect.block (s := S192x3x1) S8x3x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x3x3.size a ≤ S192x3x3.size a
  hwx0_8 : ∀ i : grid0.Coords, EltTy.bits .f32 = 32 ∨ (Rect.block (s := S192x3x3) S8x3x3.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x3x1.size a ≤ S192x3x1.size a
  hwx0_9 : ∀ i : grid0.Coords, EltTy.bits .f32 = 32 ∨ (Rect.block (s := S192x3x1) S8x3x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x3x1.size a ≤ S192x3x1.size a
  hwx0_10 : ∀ i : grid0.Coords, EltTy.bits .f32 = 32 ∨ (Rect.block (s := S192x3x1) S8x3x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x1x3.size a ≤ S192x1x3.size a
  hwx0_11 : ∀ i : grid0.Coords, EltTy.bits .f32 = 32 ∨ (Rect.block (s := S192x1x3) S8x1x3.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S8x1x1.size a ≤ S192x1x1.size a
  hwx0_12 : ∀ i : grid0.Coords, EltTy.bits .f32 = 32 ∨ (Rect.block (s := S192x1x1) S8x1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x8x4096.size a ≤ S8x192x4096.size a
  hwx0_13 : ∀ i : grid0.Coords, EltTy.bits .f32 = 32 ∨ (Rect.block (s := S8x192x4096) S8x8x4096.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8x8x4096.size a ≤ S8x192x4096.size a
  hwx0_14 : ∀ i : grid0.Coords, EltTy.bits .f32 = 32 ∨ (Rect.block (s := S8x192x4096) S8x8x4096.size (cc0_transform_14 i) (hinb0_14 i)).WholeWords (EltTy.packing .f32)

variable [Facts₀]

abbrev win0_0 : Pipeline.Window sig grid0 :=
  Pipeline.Window.ofSpec (Memref.whole main_v7) S8x8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8x8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x3x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x3x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x3x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8x3x3.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x3x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S8x3x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2) S8x3x3.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S8x3x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6) S8x3x1.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3) S8x1x3.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S8x1x1.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v9_0) S8x8x4096.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v9_1) S8x8x4096.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8x192x64x64 : Shape := ⟨4, ![8, 192, 64, 64]⟩
abbrev S192x3x1 : Shape := ⟨3, ![192, 3, 1]⟩
abbrev S192x3x3 : Shape := ⟨3, ![192, 3, 3]⟩
abbrev S192x1x3 : Shape := ⟨3, ![192, 1, 3]⟩
abbrev S192x1x1 : Shape := ⟨3, ![192, 1, 1]⟩
abbrev S192x8x64x64 : Shape := ⟨4, ![192, 8, 64, 64]⟩
abbrev S192x1x32768 : Shape := ⟨3, ![192, 1, 32768]⟩
abbrev S_ : Shape := ⟨0, ![]⟩
abbrev S192x3x32768 : Shape := ⟨3, ![192, 3, 32768]⟩

abbrev nBuf : Space → Nat
  | .hbm => 216
  | .vmem => 0
  | .smem => 0
  | _ => 0

abbrev hbmTy0_0 (i : Nat) : BufTy := match i % 128 with
  | 0 => ⟨S8x192x64x64, .f32⟩
  | 1 => ⟨S8x192x64x64, .f32⟩
  | 2 => ⟨S192x3x1, .f32⟩
  | 3 => ⟨S192x3x1, .f32⟩
  | 4 => ⟨S192x3x1, .f32⟩
  | 5 => ⟨S192x3x3, .f32⟩
  | 6 => ⟨S192x3x1, .f32⟩
  | 7 => ⟨S192x3x1, .f32⟩
  | 8 => ⟨S192x3x3, .f32⟩
  | 9 => ⟨S192x3x1, .f32⟩
  | 10 => ⟨S192x3x1, .f32⟩
  | 11 => ⟨S192x1x3, .f32⟩
  | 12 => ⟨S192x1x1, .f32⟩
  | 13 => ⟨S8x192x64x64, .f32⟩
  | 14 => ⟨S192x8x64x64, .f32⟩
  | 15 => ⟨S192x1x32768, .f32⟩
  | 16 => ⟨S_, .f32⟩
  | 17 => ⟨S192x1x32768, .f32⟩
  | 18 => ⟨S192x1x32768, .f32⟩
  | 19 => ⟨S_, .f32⟩
  | 20 => ⟨S192x3x1, .f32⟩
  | 21 => ⟨S192x3x1, .f32⟩
  | 22 => ⟨S192x3x1, .f32⟩
  | 23 => ⟨S192x3x1, .f32⟩
  | 24 => ⟨S192x3x1, .i1⟩
  | 25 => ⟨S192x3x1, .f32⟩
  | 26 => ⟨S192x3x1, .f32⟩
  | 27 => ⟨S192x3x1, .f32⟩
  | 28 => ⟨S192x3x1, .f32⟩
  | 29 => ⟨S192x3x1, .f32⟩
  | 30 => ⟨S192x3x1, .f32⟩
  | 31 => ⟨S192x3x1, .f32⟩
  | 32 => ⟨S192x3x1, .f32⟩
  | 33 => ⟨S192x3x32768, .f32⟩
  | 34 => ⟨S192x3x32768, .f32⟩
  | 35 => ⟨S192x3x32768, .f32⟩
  | 36 => ⟨S192x3x1, .f32⟩
  | 37 => ⟨S192x3x32768, .f32⟩
  | 38 => ⟨S192x3x32768, .f32⟩
  | 39 => ⟨S192x3x32768, .f32⟩
  | 40 => ⟨S192x3x32768, .f32⟩
  | 41 => ⟨S_, .f32⟩
  | 42 => ⟨S192x3x3, .f32⟩
  | 43 => ⟨S192x3x3, .f32⟩
  | 44 => ⟨S192x3x3, .f32⟩
  | 45 => ⟨S192x3x3, .f32⟩
  | 46 => ⟨S192x3x3, .i1⟩
  | 47 => ⟨S192x3x3, .f32⟩
  | 48 => ⟨S192x3x3, .f32⟩
  | 49 => ⟨S192x3x3, .f32⟩
  | 50 => ⟨S192x3x3, .f32⟩
  | 51 => ⟨S192x3x3, .f32⟩
  | 52 => ⟨S192x3x3, .f32⟩
  | 53 => ⟨S192x3x3, .f32⟩
  | 54 => ⟨S192x3x3, .f32⟩
  | 55 => ⟨S192x3x32768, .f32⟩
  | 56 => ⟨S192x3x32768, .f32⟩
  | 57 => ⟨S192x3x32768, .f32⟩
  | 58 => ⟨S192x3x1, .f32⟩
  | 59 => ⟨S192x3x32768, .f32⟩
  | 60 => ⟨S192x3x32768, .f32⟩
  | 61 => ⟨S192x3x32768, .f32⟩
  | 62 => ⟨S192x3x32768, .f32⟩
  | 63 => ⟨S_, .f32⟩
  | 64 => ⟨S192x3x3, .f32⟩
  | 65 => ⟨S192x3x3, .f32⟩
  | 66 => ⟨S192x3x3, .f32⟩
  | 67 => ⟨S192x3x3, .f32⟩
  | 68 => ⟨S192x3x3, .i1⟩
  | 69 => ⟨S192x3x3, .f32⟩
  | 70 => ⟨S192x3x3, .f32⟩
  | 71 => ⟨S192x3x3, .f32⟩
  | 72 => ⟨S192x3x3, .f32⟩
  | 73 => ⟨S192x3x3, .f32⟩
  | 74 => ⟨S192x3x3, .f32⟩
  | 75 => ⟨S192x3x3, .f32⟩
  | 76 => ⟨S192x3x3, .f32⟩
  | 77 => ⟨S192x3x32768, .f32⟩
  | 78 => ⟨S192x3x32768, .f32⟩
  | 79 => ⟨S192x3x32768, .f32⟩
  | 80 => ⟨S192x3x1, .f32⟩
  | 81 => ⟨S192x3x32768, .f32⟩
  | 82 => ⟨S192x3x32768, .f32⟩
  | 83 => ⟨S192x3x32768, .f32⟩
  | 84 => ⟨S192x3x32768, .f32⟩
  | 85 => ⟨S_, .f32⟩
  | 86 => ⟨S192x1x3, .f32⟩
  | 87 => ⟨S192x1x3, .f32⟩
  | 88 => ⟨S192x1x3, .f32⟩
  | 89 => ⟨S192x1x3, .f32⟩
  | 90 => ⟨S192x1x3, .i1⟩
  | 91 => ⟨S192x1x3, .f32⟩
  | 92 => ⟨S192x1x3, .f32⟩
  | 93 => ⟨S192x1x3, .f32⟩
  | 94 => ⟨S192x1x3, .f32⟩
  | 95 => ⟨S192x1x3, .f32⟩
  | 96 => ⟨S192x1x3, .f32⟩
  | 97 => ⟨S192x1x3, .f32⟩
  | 98 => ⟨S192x1x3, .f32⟩
  | 99 => ⟨S192x1x32768, .f32⟩
  | 100 => ⟨S192x1x32768, .f32⟩
  | 101 => ⟨S192x1x32768, .f32⟩
  | 102 => ⟨S_, .f32⟩
  | 103 => ⟨S192x1x32768, .f32⟩
  | 104 => ⟨S192x1x32768, .f32⟩
  | 105 => ⟨S_, .f32⟩
  | 106 => ⟨S192x3x1, .f32⟩
  | 107 => ⟨S192x3x1, .f32⟩
  | 108 => ⟨S192x3x1, .f32⟩
  | 109 => ⟨S192x3x1, .f32⟩
  | 110 => ⟨S192x3x1, .i1⟩
  | 111 => ⟨S192x3x1, .f32⟩
  | 112 => ⟨S192x3x1, .f32⟩
  | 113 => ⟨S192x3x1, .f32⟩
  | 114 => ⟨S192x3x1, .f32⟩
  | 115 => ⟨S192x3x1, .f32⟩
  | 116 => ⟨S192x3x1, .f32⟩
  | 117 => ⟨S192x3x1, .f32⟩
  | 118 => ⟨S192x3x1, .f32⟩
  | 119 => ⟨S192x3x32768, .f32⟩
  | 120 => ⟨S192x3x32768, .f32⟩
  | 121 => ⟨S192x3x32768, .f32⟩
  | 122 => ⟨S192x3x1, .f32⟩
  | 123 => ⟨S192x3x32768, .f32⟩
  | 124 => ⟨S192x3x32768, .f32⟩
  | 125 => ⟨S192x3x32768, .f32⟩
  | 126 => ⟨S192x3x32768, .f32⟩
  | 127 => ⟨S_, .f32⟩
  | _ => ⟨S8x192x64x64, .f32⟩

abbrev hbmTy0_1 (i : Nat) : BufTy := match i % 128 with
  | 0 => ⟨S192x3x3, .f32⟩
  | 1 => ⟨S192x3x3, .f32⟩
  | 2 => ⟨S192x3x3, .f32⟩
  | 3 => ⟨S192x3x3, .f32⟩
  | 4 => ⟨S192x3x3, .i1⟩
  | 5 => ⟨S192x3x3, .f32⟩
  | 6 => ⟨S192x3x3, .f32⟩
  | 7 => ⟨S192x3x3, .f32⟩
  | 8 => ⟨S192x3x3, .f32⟩
  | 9 => ⟨S192x3x3, .f32⟩
  | 10 => ⟨S192x3x3, .f32⟩
  | 11 => ⟨S192x3x3, .f32⟩
  | 12 => ⟨S192x3x3, .f32⟩
  | 13 => ⟨S192x3x32768, .f32⟩
  | 14 => ⟨S192x3x32768, .f32⟩
  | 15 => ⟨S192x3x32768, .f32⟩
  | 16 => ⟨S192x3x1, .f32⟩
  | 17 => ⟨S192x3x32768, .f32⟩
  | 18 => ⟨S192x3x32768, .f32⟩
  | 19 => ⟨S192x3x32768, .f32⟩
  | 20 => ⟨S192x3x32768, .f32⟩
  | 21 => ⟨S_, .f32⟩
  | 22 => ⟨S192x3x3, .f32⟩
  | 23 => ⟨S192x3x3, .f32⟩
  | 24 => ⟨S192x3x3, .f32⟩
  | 25 => ⟨S192x3x3, .f32⟩
  | 26 => ⟨S192x3x3, .i1⟩
  | 27 => ⟨S192x3x3, .f32⟩
  | 28 => ⟨S192x3x3, .f32⟩
  | 29 => ⟨S192x3x3, .f32⟩
  | 30 => ⟨S192x3x3, .f32⟩
  | 31 => ⟨S192x3x3, .f32⟩
  | 32 => ⟨S192x3x3, .f32⟩
  | 33 => ⟨S192x3x3, .f32⟩
  | 34 => ⟨S192x3x3, .f32⟩
  | 35 => ⟨S192x3x32768, .f32⟩
  | 36 => ⟨S192x3x32768, .f32⟩
  | 37 => ⟨S192x3x32768, .f32⟩
  | 38 => ⟨S192x3x1, .f32⟩
  | 39 => ⟨S192x3x32768, .f32⟩
  | 40 => ⟨S192x3x32768, .f32⟩
  | 41 => ⟨S192x3x32768, .f32⟩
  | 42 => ⟨S192x3x32768, .f32⟩
  | 43 => ⟨S_, .f32⟩
  | 44 => ⟨S192x1x3, .f32⟩
  | 45 => ⟨S192x1x3, .f32⟩
  | 46 => ⟨S192x1x3, .f32⟩
  | 47 => ⟨S192x1x3, .f32⟩
  | 48 => ⟨S192x1x3, .i1⟩
  | 49 => ⟨S192x1x3, .f32⟩
  | 50 => ⟨S192x1x3, .f32⟩
  | 51 => ⟨S192x1x3, .f32⟩
  | 52 => ⟨S192x1x3, .f32⟩
  | 53 => ⟨S192x1x3, .f32⟩
  | 54 => ⟨S192x1x3, .f32⟩
  | 55 => ⟨S192x1x3, .f32⟩
  | 56 => ⟨S192x1x3, .f32⟩
  | 57 => ⟨S192x1x32768, .f32⟩
  | 58 => ⟨S192x1x32768, .f32⟩
  | 59 => ⟨S192x1x32768, .f32⟩
  | 60 => ⟨S192x1x32768, .f32⟩
  | 61 => ⟨S192x1x32768, .f32⟩
  | 62 => ⟨S192x1x32768, .f32⟩
  | 63 => ⟨S192x1x32768, .f32⟩
  | 64 => ⟨S192x1x32768, .f32⟩
  | 65 => ⟨S192x1x32768, .f32⟩
  | 66 => ⟨S_, .f32⟩
  | 67 => ⟨S192x1x32768, .f32⟩
  | 68 => ⟨S192x1x32768, .f32⟩
  | 69 => ⟨S_, .f32⟩
  | 70 => ⟨S192x1x32768, .f32⟩
  | 71 => ⟨S192x1x32768, .f32⟩
  | 72 => ⟨S192x1x32768, .f32⟩
  | 73 => ⟨S192x1x32768, .f32⟩
  | 74 => ⟨S192x1x32768, .f32⟩
  | 75 => ⟨S_, .f32⟩
  | 76 => ⟨S192x1x32768, .f32⟩
  | 77 => ⟨S192x1x32768, .f32⟩
  | 78 => ⟨S_, .f32⟩
  | 79 => ⟨S192x1x32768, .f32⟩
  | 80 => ⟨S192x1x32768, .f32⟩
  | 81 => ⟨S192x1x32768, .f32⟩
  | 82 => ⟨S192x1x32768, .f32⟩
  | 83 => ⟨S_, .f32⟩
  | 84 => ⟨S192x1x32768, .f32⟩
  | 85 => ⟨S192x1x32768, .f32⟩
  | 86 => ⟨S192x8x64x64, .f32⟩
  | 87 => ⟨S8x192x64x64, .f32⟩
  | _ => ⟨S8x192x64x64, .f32⟩

abbrev hbmTy (i : Nat) : BufTy := match i / 128 with
  | 0 => hbmTy0_0 i
  | 1 => hbmTy0_1 i
  | _ => ⟨S8x192x64x64, .f32⟩

abbrev bufTy : (tb : Table) → Fin (tcTables nBuf tb) → BufTy
  | .hbm, ⟨i, _⟩ => hbmTy i
  | _, _ => ⟨S8x192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_call3_cst : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_cst_0 : Ref sig .tc := ⟨.hbm, 102, rfl⟩
abbrev main_v36 : Ref sig .tc := ⟨.hbm, 103, rfl⟩
abbrev main_v37 : Ref sig .tc := ⟨.hbm, 104, rfl⟩
abbrev main_call4_cst : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_call5_cst : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_call5_v5 : Ref sig .tc := ⟨.hbm, 133, rfl⟩
abbrev main_call5_v6 : Ref sig .tc := ⟨.hbm, 134, rfl⟩
abbrev main_call5_v7 : Ref sig .tc := ⟨.hbm, 135, rfl⟩
abbrev main_call5_v8 : Ref sig .tc := ⟨.hbm, 136, rfl⟩
abbrev main_call5_v9 : Ref sig .tc := ⟨.hbm, 137, rfl⟩
abbrev main_call5_v10 : Ref sig .tc := ⟨.hbm, 138, rfl⟩
abbrev main_call5_v11 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_call6_cst : Ref sig .tc := ⟨.hbm, 149, rfl⟩
abbrev main_call6_v0 : Ref sig .tc := ⟨.hbm, 150, rfl⟩
abbrev main_call6_v1 : Ref sig .tc := ⟨.hbm, 151, rfl⟩
abbrev main_call6_v2 : Ref sig .tc := ⟨.hbm, 152, rfl⟩
abbrev main_call6_v3 : Ref sig .tc := ⟨.hbm, 153, rfl⟩
abbrev main_call6_v4 : Ref sig .tc := ⟨.hbm, 154, rfl⟩
abbrev main_call6_v5 : Ref sig .tc := ⟨.hbm, 155, rfl⟩
abbrev main_call6_v6 : Ref sig .tc := ⟨.hbm, 156, rfl⟩
abbrev main_call6_v7 : Ref sig .tc := ⟨.hbm, 157, rfl⟩
abbrev main_call6_v8 : Ref sig .tc := ⟨.hbm, 158, rfl⟩
abbrev main_call6_v9 : Ref sig .tc := ⟨.hbm, 159, rfl⟩
abbrev main_call6_v10 : Ref sig .tc := ⟨.hbm, 160, rfl⟩
abbrev main_call6_v11 : Ref sig .tc := ⟨.hbm, 161, rfl⟩
abbrev main_v56 : Ref sig .tc := ⟨.hbm, 162, rfl⟩
abbrev main_v57 : Ref sig .tc := ⟨.hbm, 163, rfl⟩
abbrev main_v58 : Ref sig .tc := ⟨.hbm, 164, rfl⟩
abbrev main_v59 : Ref sig .tc := ⟨.hbm, 165, rfl⟩
abbrev main_v60 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_call7_cst : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_call7_v3 : Ref sig .tc := ⟨.hbm, 175, rfl⟩
abbrev main_call7_v4 : Ref sig .tc := ⟨.hbm, 176, rfl⟩
abbrev main_call7_v5 : Ref sig .tc := ⟨.hbm, 177, rfl⟩
abbrev main_call7_v6 : Ref sig .tc := ⟨.hbm, 178, rfl⟩
abbrev main_call7_v7 : Ref sig .tc := ⟨.hbm, 179, rfl⟩
abbrev main_call7_v8 : Ref sig .tc := ⟨.hbm, 180, rfl⟩
abbrev main_call7_v9 : Ref sig .tc := ⟨.hbm, 181, rfl⟩
abbrev main_call7_v10 : Ref sig .tc := ⟨.hbm, 182, rfl⟩
abbrev main_call7_v11 : Ref sig .tc := ⟨.hbm, 183, rfl⟩
abbrev main_v65 : Ref sig .tc := ⟨.hbm, 184, rfl⟩
abbrev main_v66 : Ref sig .tc := ⟨.hbm, 185, rfl⟩
abbrev main_v67 : Ref sig .tc := ⟨.hbm, 186, rfl⟩
abbrev main_v68 : Ref sig .tc := ⟨.hbm, 187, rfl⟩
abbrev main_v69 : Ref sig .tc := ⟨.hbm, 188, rfl⟩
abbrev main_v70 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_cst_1 : Ref sig .tc := ⟨.hbm, 194, rfl⟩
abbrev main_v75 : Ref sig .tc := ⟨.hbm, 195, rfl⟩
abbrev main_v76 : Ref sig .tc := ⟨.hbm, 196, rfl⟩
abbrev main_cst_2 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_v80 : Ref sig .tc := ⟨.hbm, 201, rfl⟩
abbrev main_v81 : Ref sig .tc := ⟨.hbm, 202, rfl⟩
abbrev main_cst_3 : Ref sig .tc := ⟨.hbm, 203, rfl⟩
abbrev main_v82 : Ref sig .tc := ⟨.hbm, 204, rfl⟩
abbrev main_v83 : Ref sig .tc := ⟨.hbm, 205, rfl⟩
abbrev main_cst_4 : Ref sig .tc := ⟨.hbm, 206, rfl⟩
abbrev main_v84 : Ref sig .tc := ⟨.hbm, 207, rfl⟩
abbrev main_v85 : Ref sig .tc := ⟨.hbm, 208, rfl⟩
abbrev main_v86 : Ref sig .tc := ⟨.hbm, 209, rfl⟩
abbrev main_v87 : Ref sig .tc := ⟨.hbm, 210, rfl⟩
abbrev main_cst_5 : Ref sig .tc := ⟨.hbm, 211, rfl⟩
abbrev main_v88 : Ref sig .tc := ⟨.hbm, 212, rfl⟩
abbrev main_v89 : Ref sig .tc := ⟨.hbm, 213, rfl⟩
abbrev main_v90 : Ref sig .tc := ⟨.hbm, 214, rfl⟩
abbrev main_v91 : Ref sig .tc := ⟨.hbm, 215, rfl⟩

abbrev nD : Nat := 1
abbrev τ : Topo := Topo.v7x

variable {F : FTy → Type} [FloatOps F]

class Facts₀ : Prop where
  transposes_S8x192x64x64_S192x8x64x64_1_0_2_3 : S8x192x64x64.Transposes [1, 0, 2, 3] S192x8x64x64
  shapeCasts_S192x8x64x64_S192x1x32768 : S192x8x64x64.ShapeCasts S192x1x32768
  bcast_S_S192x1x32768 : S_.BroadcastsInDim S192x1x32768 (![] : Fin 0 → Fin S192x1x32768.rank)
  bcast_S_S192x3x1 : S_.BroadcastsInDim S192x3x1 (![] : Fin 0 → Fin S192x3x1.rank)
  bcast_S192x3x1_S192x3x32768_0_1_2 : S192x3x1.BroadcastsInDim S192x3x32768 (![0, 1, 2] : Fin 3 → Fin S192x3x32768.rank)
  bcast_S_S192x3x3 : S_.BroadcastsInDim S192x3x3 (![] : Fin 0 → Fin S192x3x3.rank)
  bcast_S_S192x1x3 : S_.BroadcastsInDim S192x1x3 (![] : Fin 0 → Fin S192x1x3.rank)
  bcast_S192x1x1_S192x1x32768_0_1_2 : S192x1x1.BroadcastsInDim S192x1x32768 (![0, 1, 2] : Fin 3 → Fin S192x1x32768.rank)
  shapeCasts_S192x1x32768_S192x8x64x64 : S192x1x32768.ShapeCasts S192x8x64x64
  transposes_S192x8x64x64_S8x192x64x64_1_0_2_3 : S192x8x64x64.Transposes [1, 0, 2, 3] S8x192x64x64
  dot_S192x3x1_S192x1x32768_S192x3x32768_2_1_1_2_0_0_wf : DotDims.WF S192x3x1 S192x1x32768 S192x3x32768 [2] [1] [1] [2] [0] [0]
  dot_S192x3x3_S192x3x32768_S192x3x32768_2_1_1_2_0_0_wf : DotDims.WF S192x3x3 S192x3x32768 S192x3x32768 [2] [1] [1] [2] [0] [0]
  dot_S192x1x3_S192x3x32768_S192x1x32768_2_1_1_2_0_0_wf : DotDims.WF S192x1x3 S192x3x32768 S192x1x32768 [2] [1] [1] [2] [0] [0]

variable [Facts₀]

def dot_S192x3x1_S192x1x32768_S192x3x32768_2_1_1_2_0_0 : DotDims S192x3x1 S192x1x32768 S192x3x32768 where
  lhsContracting := [2]
  rhsContracting := [1]
  lhsNonContracting := [1]
  rhsNonContracting := [2]
  lhsBatch := [0]
  rhsBatch := [0]
  wf := dot_S192x3x1_S192x1x32768_S192x3x32768_2_1_1_2_0_0_wf
def dot_S192x3x3_S192x3x32768_S192x3x32768_2_1_1_2_0_0 : DotDims S192x3x3 S192x3x32768 S192x3x32768 where
  lhsContracting := [2]
  rhsContracting := [1]
  lhsNonContracting := [1]
  rhsNonContracting := [2]
  lhsBatch := [0]
  rhsBatch := [0]
  wf := dot_S192x3x3_S192x3x32768_S192x3x32768_2_1_1_2_0_0_wf
def dot_S192x1x3_S192x3x32768_S192x1x32768_2_1_1_2_0_0 : DotDims S192x1x3 S192x3x32768 S192x1x32768 where
  lhsContracting := [2]
  rhsContracting := [1]
  lhsNonContracting := [1]
  rhsNonContracting := [2]
  lhsBatch := [0]
  rhsBatch := [0]
  wf := dot_S192x1x3_S192x3x32768_S192x1x32768_2_1_1_2_0_0_wf

class Facts : Prop extends Facts₀ where

variable [Facts]
-- ==== Proof.Spec.lean ====
/-
  The mathematics of the certificate, free of any program: one channel of a factorized entropy model.
  A channel carries a chain of four small affine layers 1 → 3 → 3 → 3 → 1 on the extended reals, each of the first
  three followed by the gated residual  v ↦ v + f · tanh v  (the weights enter through a softplus, the gates through a
  tanh, both taken before the chain). The chain is evaluated at y − 1/2 and at y + 1/2, and the likelihood of y is
      max ( | σ(s · upper) − σ(s · lower) | , floor ),     s = − sign (lower + upper),   σ the logistic function.
  Two spellings of the first layer occur: the direct one, w · (y ∓ 1/2) + b, and the one that shares the product,
  (w · y + b) ∓ w · 1/2. They agree when w, y and b are real numbers (distributivity of · over − on ℝ); on the
  extended reals they need not (w = +∞), which is why the finiteness of the inputs is used, and only here.
-/
import Idealize.ShloMosaic.PureOps.Ideal
import Idealize.ShloMosaic.PureOps.Ideal.Laws

noncomputable section

namespace Cert.Bottleneck

open Idealize.ShloMosaic

/-- The float pattern of one half denotes the real 1/2. -/
theorem half_eq : Ideal.ofBits .f32 0x3F000000#32 = (((1 : ℝ) / 2 : ℝ) : EReal) := by
  simp [Ideal.ofBits, Ideal.ieee, -EReal.coe_mul]; norm_num

/-- Softplus as both programs compute it, at one element: log (e^x + e^0) written max(x, 0) + log1p (e^(−|x − 0|)),
    behind a guard that can never fire on the extended reals (x − 0 is never different from itself). -/
def sp (x : EReal) : EReal :=
  Scalar.select (Ideal.cmp .une (x - Ideal.ofBits .f32 0x00000000#32) (x - Ideal.ofBits .f32 0x00000000#32))
    (x + Ideal.ofBits .f32 0x00000000#32)
    (max x (Ideal.ofBits .f32 0x00000000#32)
      + Ideal.log1p (Ideal.exp (-(max (x - Ideal.ofBits .f32 0x00000000#32) (-(x - Ideal.ofBits .f32 0x00000000#32))))))

/-- Softplus of a real number is a real number: max(r, 0) + log (1 + e^(−|r|)), the logarithm's argument above 1. -/
theorem sp_coe (r : ℝ) : ∃ s : ℝ, sp (r : EReal) = (s : EReal) := by
  refine ⟨max r 0 + Real.log (1 + Real.exp (-(max r (-r)))), ?_⟩
  unfold sp
  rw [Ideal.ofBits_zero_f32, sub_zero, add_zero]
  have hc : Ideal.cmp .une (r : EReal) (r : EReal) = 0#1 := by simp [Ideal.cmp]
  rw [hc]
  show (max (r : EReal) 0 + Ideal.log1p (Ideal.exp (-(max (r : EReal) (-(r : EReal)))))) = _
  have h1 : max (r : EReal) (-(r : EReal)) = ((max r (-r) : ℝ) : EReal) := by
    rw [← EReal.coe_neg]; exact (EReal.coe_strictMono.monotone.map_max).symm
  have h0 : max (r : EReal) 0 = ((max r 0 : ℝ) : EReal) := by
    rw [← EReal.coe_zero]; exact (EReal.coe_strictMono.monotone.map_max).symm
  rw [h1, h0, ← EReal.coe_neg, Ideal.exp_coe]
  unfold Ideal.log1p
  rw [← EReal.coe_one, ← EReal.coe_add, Ideal.log_coe, if_neg (not_le.mpr (by positivity)), ← EReal.coe_add]

/-- The gated residual after each of the first three layers. -/
def gate (f v : EReal) : EReal := v + f * Ideal.tanh v

/-- One channel's parameters as the chain uses them: weights after softplus, gates after tanh. -/
structure Chan where
  w0 : Fin 3 → EReal
  b0 : Fin 3 → EReal
  f0 : Fin 3 → EReal
  w1 : Fin 3 → Fin 3 → EReal
  b1 : Fin 3 → EReal
  f1 : Fin 3 → EReal
  w2 : Fin 3 → Fin 3 → EReal
  b2 : Fin 3 → EReal
  f2 : Fin 3 → EReal
  w3 : Fin 3 → EReal
  b3 : EReal

/-- Layer 0 (one input), direct spelling: gate (w · v + b). -/
def hid0 (P : Chan) (v : EReal) (o : Fin 3) : EReal := gate (P.f0 o) (P.w0 o * v + P.b0 o)

/-- Layer 0 below y, shared-product spelling: gate ((w · y + b) − w · 1/2). -/
def hid0Lo (P : Chan) (y : EReal) (o : Fin 3) : EReal :=
  gate (P.f0 o) ((P.w0 o * y + P.b0 o) - P.w0 o * Ideal.ofBits .f32 0x3F000000#32)

/-- Layer 0 above y, shared-product spelling: gate ((w · y + b) + w · 1/2). -/
def hid0Hi (P : Chan) (y : EReal) (o : Fin 3) : EReal :=
  gate (P.f0 o) ((P.w0 o * y + P.b0 o) + P.w0 o * Ideal.ofBits .f32 0x3F000000#32)

/-- Layers 1 and 2 (three inputs, three outputs). -/
def hid1 (P : Chan) (h : Fin 3 → EReal) (o : Fin 3) : EReal :=
  gate (P.f1 o) (P.w1 o 0 * h 0 + P.w1 o 1 * h 1 + P.w1 o 2 * h 2 + P.b1 o)
def hid2 (P : Chan) (h : Fin 3 → EReal) (o : Fin 3) : EReal :=
  gate (P.f2 o) (P.w2 o 0 * h 0 + P.w2 o 1 * h 1 + P.w2 o 2 * h 2 + P.b2 o)

/-- The last layer (three inputs, one output, no gate). -/
def logit (P : Chan) (h : Fin 3 → EReal) : EReal := P.w3 0 * h 0 + P.w3 1 * h 1 + P.w3 2 * h 2 + P.b3

/-- Layers 1, 2 and 3 after a given first hidden layer. -/
def upper3 (P : Chan) (h : Fin 3 → EReal) : EReal := logit P (hid2 P (hid1 P h))

/-- The whole chain at v. -/
def cum (P : Chan) (v : EReal) : EReal := upper3 P (hid0 P v)

/-- The likelihood from the two chain values. -/
def tail (lo up : EReal) : EReal :=
  max (max (Ideal.logistic (-(Ideal.sign (lo + up)) * up) - Ideal.logistic (-(Ideal.sign (lo + up)) * lo))
        (-(Ideal.logistic (-(Ideal.sign (lo + up)) * up) - Ideal.logistic (-(Ideal.sign (lo + up)) * lo))))
      (Ideal.ofBits .f32 0x3089705F#32)

/-- The likelihood of y, direct spelling. -/
def lik (P : Chan) (y : EReal) : EReal :=
  tail (cum P (y - Ideal.ofBits .f32 0x3F000000#32)) (cum P (y + Ideal.ofBits .f32 0x3F000000#32))

/-- The likelihood of y, shared-product spelling of layer 0. -/
def likShared (P : Chan) (y : EReal) : EReal := tail (upper3 P (hid0Lo P y)) (upper3 P (hid0Hi P y))

/-- On real numbers, (w · y + b) − w · 1/2 = w · (y − 1/2) + b and (w · y + b) + w · 1/2 = w · (y + 1/2) + b. -/
theorem shared_lo (a c d : ℝ) :
    ((a : EReal) * (c : EReal) + (d : EReal)) - (a : EReal) * Ideal.ofBits .f32 0x3F000000#32
      = (a : EReal) * ((c : EReal) - Ideal.ofBits .f32 0x3F000000#32) + (d : EReal) := by
  rw [half_eq]
  simp only [← EReal.coe_mul, ← EReal.coe_add, ← EReal.coe_sub]
  congr 1; ring
theorem shared_hi (a c d : ℝ) :
    ((a : EReal) * (c : EReal) + (d : EReal)) + (a : EReal) * Ideal.ofBits .f32 0x3F000000#32
      = (a : EReal) * ((c : EReal) + Ideal.ofBits .f32 0x3F000000#32) + (d : EReal) := by
  rw [half_eq]
  simp only [← EReal.coe_mul, ← EReal.coe_add]
  congr 1; ring

/-- The two spellings of the likelihood agree when y, the first layer's weights and its biases are real. -/
theorem likShared_eq (P : Chan) (y : EReal) (hy : ∃ c : ℝ, y = (c : EReal))
    (hw : ∀ o, ∃ a : ℝ, P.w0 o = (a : EReal)) (hb : ∀ o, ∃ d : ℝ, P.b0 o = (d : EReal)) :
    likShared P y = lik P y := by
  obtain ⟨c, rfl⟩ := hy
  have elo : hid0Lo P (c : EReal) = hid0 P ((c : EReal) - Ideal.ofBits .f32 0x3F000000#32) := by
    funext o
    obtain ⟨a, ha⟩ := hw o
    obtain ⟨d, hd⟩ := hb o
    unfold hid0Lo hid0
    rw [ha, hd, shared_lo]
  have ehi : hid0Hi P (c : EReal) = hid0 P ((c : EReal) + Ideal.ofBits .f32 0x3F000000#32) := by
    funext o
    obtain ⟨a, ha⟩ := hw o
    obtain ⟨d, hd⟩ := hb o
    unfold hid0Hi hid0
    rw [ha, hd, shared_hi]
  unfold likShared lik cum
  rw [elo, ehi]

end Cert.Bottleneck

end
-- ==== Proof.Raw.lean ====
/-
  A channel's parameters read off eleven parameter arrays whose leading axis counts channels — N of them: 192 for the
  whole arrays, 8 for the blocks of one tile. Reading channel ch of arrays and channel ch' of other arrays gives the
  same parameters when the arrays agree entry by entry along those two channels.
-/
import proofs.«168000_j32736240730292_2_alg».proof.Proof.Spec
import Idealize.ShloMosaic.Lib.ValueIdx

noncomputable section

namespace Cert.Bottleneck

open Idealize.ShloMosaic Idealize.ShloMosaic.ValueIdx

/-- Channel ch's parameters, the arrays taken as they are (softplus and tanh already applied where they apply). -/
def chanRaw {N : Nat} (w0 b0 f0 : (⟨3, ![N, 3, 1]⟩ : Shape).Idx → EReal) (w1 : (⟨3, ![N, 3, 3]⟩ : Shape).Idx → EReal)
    (b1 f1 : (⟨3, ![N, 3, 1]⟩ : Shape).Idx → EReal) (w2 : (⟨3, ![N, 3, 3]⟩ : Shape).Idx → EReal)
    (b2 f2 : (⟨3, ![N, 3, 1]⟩ : Shape).Idx → EReal) (w3 : (⟨3, ![N, 1, 3]⟩ : Shape).Idx → EReal)
    (b3 : (⟨3, ![N, 1, 1]⟩ : Shape).Idx → EReal) (ch : Fin N) : Chan where
  w0 o := w0 (ix3 ch o (0 : Fin 1))
  b0 o := b0 (ix3 ch o (0 : Fin 1))
  f0 o := f0 (ix3 ch o (0 : Fin 1))
  w1 o k := w1 (ix3 ch o k)
  b1 o := b1 (ix3 ch o (0 : Fin 1))
  f1 o := f1 (ix3 ch o (0 : Fin 1))
  w2 o k := w2 (ix3 ch o k)
  b2 o := b2 (ix3 ch o (0 : Fin 1))
  f2 o := f2 (ix3 ch o (0 : Fin 1))
  w3 k := w3 (ix3 ch (0 : Fin 1) k)
  b3 := b3 (ix3 ch (0 : Fin 1) (0 : Fin 1))

/-- Arrays that agree along channel ch of the first family and channel ch' of the second give the same parameters. -/
theorem chanRaw_congr {N M : Nat}
    (w0 b0 f0 : (⟨3, ![N, 3, 1]⟩ : Shape).Idx → EReal) (w1 : (⟨3, ![N, 3, 3]⟩ : Shape).Idx → EReal)
    (b1 f1 : (⟨3, ![N, 3, 1]⟩ : Shape).Idx → EReal) (w2 : (⟨3, ![N, 3, 3]⟩ : Shape).Idx → EReal)
    (b2 f2 : (⟨3, ![N, 3, 1]⟩ : Shape).Idx → EReal) (w3 : (⟨3, ![N, 1, 3]⟩ : Shape).Idx → EReal)
    (b3 : (⟨3, ![N, 1, 1]⟩ : Shape).Idx → EReal) (ch : Fin N)
    (w0' b0' f0' : (⟨3, ![M, 3, 1]⟩ : Shape).Idx → EReal) (w1' : (⟨3, ![M, 3, 3]⟩ : Shape).Idx → EReal)
    (b1' f1' : (⟨3, ![M, 3, 1]⟩ : Shape).Idx → EReal) (w2' : (⟨3, ![M, 3, 3]⟩ : Shape).Idx → EReal)
    (b2' f2' : (⟨3, ![M, 3, 1]⟩ : Shape).Idx → EReal) (w3' : (⟨3, ![M, 1, 3]⟩ : Shape).Idx → EReal)
    (b3' : (⟨3, ![M, 1, 1]⟩ : Shape).Idx → EReal) (ch' : Fin M)
    (hw0 : ∀ o, w0 (ix3 ch o (0 : Fin 1)) = w0' (ix3 ch' o (0 : Fin 1)))
    (hb0 : ∀ o, b0 (ix3 ch o (0 : Fin 1)) = b0' (ix3 ch' o (0 : Fin 1)))
    (hf0 : ∀ o, f0 (ix3 ch o (0 : Fin 1)) = f0' (ix3 ch' o (0 : Fin 1)))
    (hw1 : ∀ o k, w1 (ix3 ch o k) = w1' (ix3 ch' o k))
    (hb1 : ∀ o, b1 (ix3 ch o (0 : Fin 1)) = b1' (ix3 ch' o (0 : Fin 1)))
    (hf1 : ∀ o, f1 (ix3 ch o (0 : Fin 1)) = f1' (ix3 ch' o (0 : Fin 1)))
    (hw2 : ∀ o k, w2 (ix3 ch o k) = w2' (ix3 ch' o k))
    (hb2 : ∀ o, b2 (ix3 ch o (0 : Fin 1)) = b2' (ix3 ch' o (0 : Fin 1)))
    (hf2 : ∀ o, f2 (ix3 ch o (0 : Fin 1)) = f2' (ix3 ch' o (0 : Fin 1)))
    (hw3 : ∀ k, w3 (ix3 ch (0 : Fin 1) k) = w3' (ix3 ch' (0 : Fin 1) k))
    (hb3 : b3 (ix3 ch (0 : Fin 1) (0 : Fin 1)) = b3' (ix3 ch' (0 : Fin 1) (0 : Fin 1))) :
    chanRaw w0 b0 f0 w1 b1 f1 w2 b2 f2 w3 b3 ch = chanRaw w0' b0' f0' w1' b1' f1' w2' b2' f2' w3' b3' ch' := by
  unfold chanRaw
  congr 1
  · exact funext hw0
  · exact funext hb0
  · exact funext hf0
  · exact funext fun o => funext (hw1 o)
  · exact funext hb1
  · exact funext hf1
  · exact funext fun o => funext (hw2 o)
  · exact funext hb2
  · exact funext hf2
  · exact funext hw3

end Cert.Bottleneck

end
-- ==== Proof.Layout.lean ====
/-
  How a per-channel number reaches an entry of a block. A block of the two big arrays is [8, 8, 4096]: batch, channel
  within the tile, place in the flattened 64 × 64 plane. A parameter block is [8, A, B]: channel within the tile, output
  unit, input unit. The body takes the column (·, o, k) of a parameter block as an [8, 1, 1] slice, flattens it to [8],
  lays it out [1, 8, 1] and spreads it over the [8, 8, 4096] block, so that at (b, c, p) it reads the parameter of
  channel c. Each step is read at an index here; the pointwise operations that the library does not read are too.
-/
import Idealize.ShloMosaic.Lib.Pipeline.Value
import Idealize.ShloMosaic.Lib.ValueIdx
import Idealize.ShloMosaic.PureOps.Ideal.Laws

noncomputable section

namespace Cert.Bottleneck.Layout

open Idealize.ShloMosaic Idealize.ShloMosaic.ValueIdx

variable {α : Type}

/-- A [1, 8, 1] row of per-channel numbers spread over a [8, 8, 4096] block reads, at (b, c, p), its entry for channel c. -/
theorem spread_apply (u : (⟨3, ![1, 8, 1]⟩ : Shape).Idx → α) (h : (⟨3, ![1, 8, 1]⟩ : Shape).Broadcasts ⟨3, ![8, 8, 4096]⟩)
    (b : Fin 8) (c : Fin 8) (p : Fin 4096) :
    broadcastTo ⟨3, ![8, 8, 4096]⟩ u h (ix3 b c p) = u (ix3 (0 : Fin 1) c (0 : Fin 1)) :=
  broadcastTo_apply u h (ix3 b c p) (ix3 (0 : Fin 1) c (0 : Fin 1)) (fun a => by
    match a with
    | ⟨0, _⟩ => rfl
    | ⟨1, _⟩ => rfl
    | ⟨2, _⟩ => rfl)

/-- An [8, 1, 1] column flattened to [8] and laid out [1, 8, 1] keeps entry c at (0, c, 0): both reshapes preserve the
    row-major position, which is c throughout. -/
theorem relay_apply (v : (⟨3, ![8, 1, 1]⟩ : Shape).Idx → α) (h1 : (⟨3, ![8, 1, 1]⟩ : Shape).ShapeCasts ⟨1, ![8]⟩)
    (h2 : (⟨1, ![8]⟩ : Shape).ShapeCasts ⟨3, ![1, 8, 1]⟩) (c : Fin 8) :
    shapeCast ⟨3, ![1, 8, 1]⟩ (shapeCast ⟨1, ![8]⟩ v h1) h2 (ix3 (0 : Fin 1) c (0 : Fin 1)) = v (ix3 c (0 : Fin 1) (0 : Fin 1)) := by
  refine (shapeCast_apply _ h2 (ix3 (0 : Fin 1) c (0 : Fin 1)) (ix1 c) ?_).trans ?_
  · rw [Shape.rowMajor_val_one, Shape.rowMajor_val_three]
    show c.val = (0 * 8 + c.val) * 1 + 0
    omega
  · refine shapeCast_apply _ h1 (ix1 c) (ix3 c (0 : Fin 1) (0 : Fin 1)) ?_
    rw [Shape.rowMajor_val_one, Shape.rowMajor_val_three]
    show (c.val * 1 + 0) * 1 + 0 = c.val
    omega

/-- The [8, 1, 1] slice of an [8, A, B] parameter block at offsets (0, o, k) reads, at (c, 0, 0), the block at (c, o, k). -/
theorem slice_apply {A B : Nat} (W : (⟨3, ![8, A, B]⟩ : Shape).Idx → α) (o : Fin A) (k : Fin B) (off : Fin 3 → Nat)
    (hoff : off = ![0, o.val, k.val]) (hs : (⟨3, ![8, A, B]⟩ : Shape).Slices off ⟨3, ![8, 1, 1]⟩) (c : Fin 8) :
    extractStridedSlice ⟨3, ![8, 1, 1]⟩ off W hs (ix3 c (0 : Fin 1) (0 : Fin 1)) = W (ix3 c o k) := by
  subst hoff
  refine extractStridedSlice_apply _ W hs _ _ (fun a => ?_)
  match a with
  | ⟨0, _⟩ => show c.val = 0 + c.val; omega
  | ⟨1, _⟩ => show o.val = o.val + 0; omega
  | ⟨2, _⟩ => show k.val = k.val + 0; omega

/-- The pointwise operations the body uses beyond sums, differences and products, read at an index. -/
theorem tanh_apply {s : Shape} (a : FVec Ideal s .f32) (i : s.Idx) : tanh a i = Ideal.tanh (a i) := rfl
theorem logistic_apply {s : Shape} (a : FVec Ideal s .f32) (i : s.Idx) : logistic a i = Ideal.logistic (a i) := rfl
theorem absf_apply {s : Shape} (a : FVec Ideal s .f32) (i : s.Idx) : absf a i = max (a i) (-(a i)) := rfl

/-- The sign of a vector as the body spells it — one, carrying the entry's sign, where the entry's magnitude is above
    zero, and the entry itself elsewhere — is the sign of each entry. -/
theorem sign_vec {s : Shape} (x : FVec Ideal s .f32) :
    select (cmpf .ogt (absf x) (broadcast s (Scalar.ofBits .f32 0x00000000#32)))
        (select (cmpf .olt x (constant s .f32 0x00000000#32)) (constant s .f32 0xBF800000#32)
          (constant s .f32 0x3F800000#32)) x
      = fun i => Ideal.sign (x i) :=
  funext fun i => Ideal.jnp_sign_eq_sign_f32 (x i)

end Cert.Bottleneck.Layout

end
-- ==== Proof.Body.lean ====
/-
  What the body leaves in its two output blocks, entry by entry. A point of the grid handles a tile of eight channels:
  the blocks of x and noise are [8, 8, 4096] (batch, channel of the tile, place), the parameter blocks [8, ·, ·] (channel
  of the tile first). At (b, c, p) the first output block holds x + noise, and the second the likelihood of that sum
  under the chain of channel c of the tile, with the first layer in its shared-product spelling: every operation of the
  body is pointwise in (b, c, p) once each parameter column has been read at channel c.
-/
import proofs.«168000_j32736240730292_2_alg».proof.Proof.Gen.KernelIdeal.Frame
import proofs.«168000_j32736240730292_2_alg».proof.Proof.Raw
import proofs.«168000_j32736240730292_2_alg».proof.Proof.Layout

set_option maxRecDepth 16384

noncomputable section

namespace Cert.KernelIdeal.Body

open Cert.KernelIdeal Cert.KernelIdeal.Gen Idealize.ShloMosaic Idealize.ShloMosaic.ValueIdx
open Cert.Bottleneck Cert.Bottleneck.Layout

theorem hz3 : (![0, 0, 0] : Fin 3 → Nat) = fun _ => 0 := funext fun a => by fin_cases a <;> rfl

/-- A float word read as a scalar of the body is the extended real the word denotes. -/
theorem scalar_ofBits (b : BitVec 32) : Scalar.ofBits (F := Ideal) .f32 b = Ideal.ofBits .f32 b := rfl

/-- Channel c of the tile: its parameters read off the eleven parameter blocks (softplus and tanh were taken before
    the blocks were cut). -/
abbrev chanBlk (x2 x3 x4 : Vec Ideal S8x3x1 .f32) (x5 : Vec Ideal S8x3x3 .f32) (x6 x7 : Vec Ideal S8x3x1 .f32)
    (x8 : Vec Ideal S8x3x3 .f32) (x9 x10 : Vec Ideal S8x3x1 .f32) (x11 : Vec Ideal S8x1x3 .f32)
    (x12 : Vec Ideal S8x1x1 .f32) (c : Fin 8) : Chan :=
  chanRaw (N := 8) x2 x3 x4 x5 x6 x7 x8 x9 x10 x11 x12 c

/-- The first output block at (b, c, p): the sum of the two big blocks there. -/
theorem sum_block (x0 x1 : Vec Ideal S8x8x4096 .f32) (x2 x3 x4 : Vec Ideal S8x3x1 .f32) (x5 : Vec Ideal S8x3x3 .f32)
    (x6 x7 : Vec Ideal S8x3x1 .f32) (x8 : Vec Ideal S8x3x3 .f32) (x9 x10 : Vec Ideal S8x3x1 .f32)
    (x11 : Vec Ideal S8x1x3 .f32) (x12 : Vec Ideal S8x1x1 .f32) (b c : Fin 8) (p : Fin 4096) :
    out0_13 (F := Ideal) x0 x1 x2 x3 x4 x5 x6 x7 x8 x9 x10 x11 x12 (ix3 b c p) = x0 (ix3 b c p) + x1 (ix3 b c p) := by
  unfold out0_13
  rw [View.canon_unit_zero hz3]
  simp only [View.ld_unit_zero (S := S8x8x4096) hz3]
  simp only [k0_pay2, shapeCast_self, addf_apply]

/-- The second output block at (b, c, p): the likelihood of the sum there under channel c's chain. -/
theorem lik_block (x0 x1 : Vec Ideal S8x8x4096 .f32) (x2 x3 x4 : Vec Ideal S8x3x1 .f32) (x5 : Vec Ideal S8x3x3 .f32)
    (x6 x7 : Vec Ideal S8x3x1 .f32) (x8 : Vec Ideal S8x3x3 .f32) (x9 x10 : Vec Ideal S8x3x1 .f32)
    (x11 : Vec Ideal S8x1x3 .f32) (x12 : Vec Ideal S8x1x1 .f32) (b c : Fin 8) (p : Fin 4096) :
    out0_14 (F := Ideal) x0 x1 x2 x3 x4 x5 x6 x7 x8 x9 x10 x11 x12 (ix3 b c p)
      = likShared (chanBlk x2 x3 x4 x5 x6 x7 x8 x9 x10 x11 x12 c) (x0 (ix3 b c p) + x1 (ix3 b c p)) := by
  unfold out0_14
  rw [View.canon_unit_zero hz3]
  simp only [View.ld_unit_zero (S := S8x8x4096) hz3, View.ld_unit_zero (S := S8x3x1) hz3, View.ld_unit_zero (S := S8x3x3) hz3,
    View.ld_unit_zero (S := S8x1x3) hz3, View.ld_unit_zero (S := S8x1x1) hz3]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81]
  simp only [sign_vec]
  simp only [shapeCast_self, mulf_apply, addf_apply, subf_apply, maximumf_apply, tanh_apply, logistic_apply, absf_apply,
    broadcast_apply, spread_apply, relay_apply,
    slice_apply (A := 3) (B := 1) (o := (0 : Fin 3)) (k := (0 : Fin 1)) (off := ![0, 0, 0]) (hoff := rfl),
    slice_apply (A := 3) (B := 1) (o := (1 : Fin 3)) (k := (0 : Fin 1)) (off := ![0, 1, 0]) (hoff := rfl),
    slice_apply (A := 3) (B := 1) (o := (2 : Fin 3)) (k := (0 : Fin 1)) (off := ![0, 2, 0]) (hoff := rfl),
    slice_apply (A := 3) (B := 3) (o := (0 : Fin 3)) (k := (0 : Fin 3)) (off := ![0, 0, 0]) (hoff := rfl),
    slice_apply (A := 3) (B := 3) (o := (0 : Fin 3)) (k := (1 : Fin 3)) (off := ![0, 0, 1]) (hoff := rfl),
    slice_apply (A := 3) (B := 3) (o := (0 : Fin 3)) (k := (2 : Fin 3)) (off := ![0, 0, 2]) (hoff := rfl),
    slice_apply (A := 3) (B := 3) (o := (1 : Fin 3)) (k := (0 : Fin 3)) (off := ![0, 1, 0]) (hoff := rfl),
    slice_apply (A := 3) (B := 3) (o := (1 : Fin 3)) (k := (1 : Fin 3)) (off := ![0, 1, 1]) (hoff := rfl),
    slice_apply (A := 3) (B := 3) (o := (1 : Fin 3)) (k := (2 : Fin 3)) (off := ![0, 1, 2]) (hoff := rfl),
    slice_apply (A := 3) (B := 3) (o := (2 : Fin 3)) (k := (0 : Fin 3)) (off := ![0, 2, 0]) (hoff := rfl),
    slice_apply (A := 3) (B := 3) (o := (2 : Fin 3)) (k := (1 : Fin 3)) (off := ![0, 2, 1]) (hoff := rfl),
    slice_apply (A := 3) (B := 3) (o := (2 : Fin 3)) (k := (2 : Fin 3)) (off := ![0, 2, 2]) (hoff := rfl),
    slice_apply (A := 1) (B := 3) (o := (0 : Fin 1)) (k := (0 : Fin 3)) (off := ![0, 0, 0]) (hoff := rfl),
    slice_apply (A := 1) (B := 3) (o := (0 : Fin 1)) (k := (1 : Fin 3)) (off := ![0, 0, 1]) (hoff := rfl),
    slice_apply (A := 1) (B := 3) (o := (0 : Fin 1)) (k := (2 : Fin 3)) (off := ![0, 0, 2]) (hoff := rfl)]
  simp only [scalar_ofBits, Ideal.ofBits_zero_f32, zero_sub]
  simp only [likShared, tail, upper3, logit, hid2, hid1, hid0Lo, hid0Hi, gate, chanBlk, chanRaw]

end Cert.KernelIdeal.Body

end
-- ==== Proof.Whole.lean ====
/-
  From blocks to arrays. The grid has 24 points; point t handles channels 8 t … 8 t + 7: its blocks of the two big
  arrays and of the two results are rows 8 t … 8 t + 7 of the channel axis of [8, 192, 4096] (all batches, all places),
  its parameter blocks the same eight channels of the [192, ·, ·] parameter arrays. So entry (b, c, p) of a big block is
  entry (b, 8 t + c, p) of its array and entry (c, o, k) of a parameter block is entry (8 t + c, o, k) of its array;
  what a point writes back is therefore the restriction to its rows of ONE function of the arrays, and since the 24
  row bands tile the channel axis the two result arrays end holding that function everywhere.
-/
import proofs.«168000_j32736240730292_2_alg».proof.Proof.Body

set_option maxRecDepth 16384

noncomputable section

namespace Cert.KernelIdeal.Whole

open Cert.KernelIdeal Cert.KernelIdeal.Gen Cert.KernelIdeal.Body Idealize.ShloMosaic Idealize.ShloMosaic.ValueIdx
open Idealize.ShloMosaic.TcCoe Idealize.SL.Sem
open Cert.Bottleneck Cert.Bottleneck.Layout
open Idealize.ShloMosaic.Pipeline (Dat)

variable (m : (ℓ : Loc nD τ sig) → Buf (Elt Ideal) ℓ)

/-! ## The arrays as the region finds them, as functions into the extended reals -/

abbrev A0 (c : Dev nD) : S8x192x4096.Idx → EReal := V m c main_v7
abbrev A1 (c : Dev nD) : S8x192x4096.Idx → EReal := V m c main_v8
abbrev W0 (c : Dev nD) : S192x3x1.Idx → EReal := V m c main_v0
abbrev B0 (c : Dev nD) : S192x3x1.Idx → EReal := V m c main_arg3
abbrev F0 (c : Dev nD) : S192x3x1.Idx → EReal := V m c main_v4
abbrev W1 (c : Dev nD) : S192x3x3.Idx → EReal := V m c main_v1
abbrev B1 (c : Dev nD) : S192x3x1.Idx → EReal := V m c main_arg6
abbrev F1 (c : Dev nD) : S192x3x1.Idx → EReal := V m c main_v5
abbrev W2 (c : Dev nD) : S192x3x3.Idx → EReal := V m c main_v2
abbrev B2 (c : Dev nD) : S192x3x1.Idx → EReal := V m c main_arg9
abbrev F2 (c : Dev nD) : S192x3x1.Idx → EReal := V m c main_v6
abbrev W3 (c : Dev nD) : S192x1x3.Idx → EReal := V m c main_v3
abbrev B3 (c : Dev nD) : S192x1x1.Idx → EReal := V m c main_arg12

/-! ## The printed index maps, decided over the 24 points -/

theorem idx_all : ∀ t : Fin cfg0.N,
    (win0_0.index t (0 : Fin 3) = 0 ∧ win0_0.index t (1 : Fin 3) = t.val ∧ win0_0.index t (2 : Fin 3) = 0) ∧
    (win0_1.index t (0 : Fin 3) = 0 ∧ win0_1.index t (1 : Fin 3) = t.val ∧ win0_1.index t (2 : Fin 3) = 0) ∧
    (win0_2.index t (0 : Fin 3) = t.val ∧ win0_2.index t (1 : Fin 3) = 0 ∧ win0_2.index t (2 : Fin 3) = 0) ∧
    (win0_3.index t (0 : Fin 3) = t.val ∧ win0_3.index t (1 : Fin 3) = 0 ∧ win0_3.index t (2 : Fin 3) = 0) ∧
    (win0_4.index t (0 : Fin 3) = t.val ∧ win0_4.index t (1 : Fin 3) = 0 ∧ win0_4.index t (2 : Fin 3) = 0) ∧
    (win0_5.index t (0 : Fin 3) = t.val ∧ win0_5.index t (1 : Fin 3) = 0 ∧ win0_5.index t (2 : Fin 3) = 0) ∧
    (win0_6.index t (0 : Fin 3) = t.val ∧ win0_6.index t (1 : Fin 3) = 0 ∧ win0_6.index t (2 : Fin 3) = 0) ∧
    (win0_7.index t (0 : Fin 3) = t.val ∧ win0_7.index t (1 : Fin 3) = 0 ∧ win0_7.index t (2 : Fin 3) = 0) ∧
    (win0_8.index t (0 : Fin 3) = t.val ∧ win0_8.index t (1 : Fin 3) = 0 ∧ win0_8.index t (2 : Fin 3) = 0) ∧
    (win0_9.index t (0 : Fin 3) = t.val ∧ win0_9.index t (1 : Fin 3) = 0 ∧ win0_9.index t (2 : Fin 3) = 0) ∧
    (win0_10.index t (0 : Fin 3) = t.val ∧ win0_10.index t (1 : Fin 3) = 0 ∧ win0_10.index t (2 : Fin 3) = 0) ∧
    (win0_11.index t (0 : Fin 3) = t.val ∧ win0_11.index t (1 : Fin 3) = 0 ∧ win0_11.index t (2 : Fin 3) = 0) ∧
    (win0_12.index t (0 : Fin 3) = t.val ∧ win0_12.index t (1 : Fin 3) = 0 ∧ win0_12.index t (2 : Fin 3) = 0) ∧
    (win0_13.index t (0 : Fin 3) = 0 ∧ win0_13.index t (1 : Fin 3) = t.val ∧ win0_13.index t (2 : Fin 3) = 0) ∧
    (win0_14.index t (0 : Fin 3) = 0 ∧ win0_14.index t (1 : Fin 3) = t.val ∧ win0_14.index t (2 : Fin 3) = 0) :=
  (by decide +kernel : ∀ t : Fin grid0.N, _)

theorem idx0 (t : Fin cfg0.N) : win0_0.index t (0 : Fin 3) = 0 ∧ win0_0.index t (1 : Fin 3) = t.val ∧ win0_0.index t (2 : Fin 3) = 0 := (idx_all t).1
theorem idx1 (t : Fin cfg0.N) : win0_1.index t (0 : Fin 3) = 0 ∧ win0_1.index t (1 : Fin 3) = t.val ∧ win0_1.index t (2 : Fin 3) = 0 := (idx_all t).2.1
theorem idx2 (t : Fin cfg0.N) : win0_2.index t (0 : Fin 3) = t.val ∧ win0_2.index t (1 : Fin 3) = 0 ∧ win0_2.index t (2 : Fin 3) = 0 := (idx_all t).2.2.1
theorem idx3 (t : Fin cfg0.N) : win0_3.index t (0 : Fin 3) = t.val ∧ win0_3.index t (1 : Fin 3) = 0 ∧ win0_3.index t (2 : Fin 3) = 0 := (idx_all t).2.2.2.1
theorem idx4 (t : Fin cfg0.N) : win0_4.index t (0 : Fin 3) = t.val ∧ win0_4.index t (1 : Fin 3) = 0 ∧ win0_4.index t (2 : Fin 3) = 0 := (idx_all t).2.2.2.2.1
theorem idx5 (t : Fin cfg0.N) : win0_5.index t (0 : Fin 3) = t.val ∧ win0_5.index t (1 : Fin 3) = 0 ∧ win0_5.index t (2 : Fin 3) = 0 := (idx_all t).2.2.2.2.2.1
theorem idx6 (t : Fin cfg0.N) : win0_6.index t (0 : Fin 3) = t.val ∧ win0_6.index t (1 : Fin 3) = 0 ∧ win0_6.index t (2 : Fin 3) = 0 := (idx_all t).2.2.2.2.2.2.1
theorem idx7 (t : Fin cfg0.N) : win0_7.index t (0 : Fin 3) = t.val ∧ win0_7.index t (1 : Fin 3) = 0 ∧ win0_7.index t (2 : Fin 3) = 0 := (idx_all t).2.2.2.2.2.2.2.1
theorem idx8 (t : Fin cfg0.N) : win0_8.index t (0 : Fin 3) = t.val ∧ win0_8.index t (1 : Fin 3) = 0 ∧ win0_8.index t (2 : Fin 3) = 0 := (idx_all t).2.2.2.2.2.2.2.2.1
theorem idx9 (t : Fin cfg0.N) : win0_9.index t (0 : Fin 3) = t.val ∧ win0_9.index t (1 : Fin 3) = 0 ∧ win0_9.index t (2 : Fin 3) = 0 := (idx_all t).2.2.2.2.2.2.2.2.2.1
theorem idx10 (t : Fin cfg0.N) : win0_10.index t (0 : Fin 3) = t.val ∧ win0_10.index t (1 : Fin 3) = 0 ∧ win0_10.index t (2 : Fin 3) = 0 := (idx_all t).2.2.2.2.2.2.2.2.2.2.1
theorem idx11 (t : Fin cfg0.N) : win0_11.index t (0 : Fin 3) = t.val ∧ win0_11.index t (1 : Fin 3) = 0 ∧ win0_11.index t (2 : Fin 3) = 0 := (idx_all t).2.2.2.2.2.2.2.2.2.2.2.1
theorem idx12 (t : Fin cfg0.N) : win0_12.index t (0 : Fin 3) = t.val ∧ win0_12.index t (1 : Fin 3) = 0 ∧ win0_12.index t (2 : Fin 3) = 0 := (idx_all t).2.2.2.2.2.2.2.2.2.2.2.2.1
theorem idx13 (t : Fin cfg0.N) : win0_13.index t (0 : Fin 3) = 0 ∧ win0_13.index t (1 : Fin 3) = t.val ∧ win0_13.index t (2 : Fin 3) = 0 := (idx_all t).2.2.2.2.2.2.2.2.2.2.2.2.2.1
theorem idx14 (t : Fin cfg0.N) : win0_14.index t (0 : Fin 3) = 0 ∧ win0_14.index t (1 : Fin 3) = t.val ∧ win0_14.index t (2 : Fin 3) = 0 := (idx_all t).2.2.2.2.2.2.2.2.2.2.2.2.2.2

theorem point_lt (t : Fin cfg0.N) : t.val < 24 := lt_of_lt_of_eq t.isLt N_0

/-- Channel c of point t's tile is channel 8 t + c of the arrays. -/
def chOf (t : Fin cfg0.N) (cc : Fin 8) : Fin 192 :=
  ⟨8 * t.val + cc.val, by have := point_lt t; have := cc.isLt; omega⟩

/-! ## Where a block's entries sit in its array -/

set_option maxHeartbeats 1000000 in
theorem emb0 (t : Fin cfg0.N) (b cc : Fin 8) (p : Fin 4096) :
    ((cfg0.win 0).blk t).view.emb (ix3 b cc p) = (ix3 b (chOf t cc) p : S8x192x4096.Idx) := by
  obtain ⟨e0_0, e0_1, e0_2⟩ := idx0 t
  funext a; apply Fin.ext
  match a with
  | ⟨0, _⟩ => show win0_0.index t (0 : Fin 3) * 8 + 1 * b.val = b.val; omega
  | ⟨1, _⟩ => show win0_0.index t (1 : Fin 3) * 8 + 1 * cc.val = 8 * t.val + cc.val; omega
  | ⟨2, _⟩ => show win0_0.index t (2 : Fin 3) * 4096 + 1 * p.val = p.val; omega
set_option maxHeartbeats 1000000 in
theorem emb1 (t : Fin cfg0.N) (b cc : Fin 8) (p : Fin 4096) :
    ((cfg0.win 1).blk t).view.emb (ix3 b cc p) = (ix3 b (chOf t cc) p : S8x192x4096.Idx) := by
  obtain ⟨e1_0, e1_1, e1_2⟩ := idx1 t
  funext a; apply Fin.ext
  match a with
  | ⟨0, _⟩ => show win0_1.index t (0 : Fin 3) * 8 + 1 * b.val = b.val; omega
  | ⟨1, _⟩ => show win0_1.index t (1 : Fin 3) * 8 + 1 * cc.val = 8 * t.val + cc.val; omega
  | ⟨2, _⟩ => show win0_1.index t (2 : Fin 3) * 4096 + 1 * p.val = p.val; omega
set_option maxHeartbeats 1000000 in
theorem emb2 (t : Fin cfg0.N) (cc : Fin 8) (o : Fin 3) (k : Fin 1) :
    ((cfg0.win 2).blk t).view.emb (ix3 cc o k) = (ix3 (chOf t cc) o k : S192x3x1.Idx) := by
  obtain ⟨e2_0, e2_1, e2_2⟩ := idx2 t
  funext a; apply Fin.ext
  match a with
  | ⟨0, _⟩ => show win0_2.index t (0 : Fin 3) * 8 + 1 * cc.val = 8 * t.val + cc.val; omega
  | ⟨1, _⟩ => show win0_2.index t (1 : Fin 3) * 3 + 1 * o.val = o.val; omega
  | ⟨2, _⟩ => show win0_2.index t (2 : Fin 3) * 1 + 1 * k.val = k.val; omega
set_option maxHeartbeats 1000000 in
theorem emb3 (t : Fin cfg0.N) (cc : Fin 8) (o : Fin 3) (k : Fin 1) :
    ((cfg0.win 3).blk t).view.emb (ix3 cc o k) = (ix3 (chOf t cc) o k : S192x3x1.Idx) := by
  obtain ⟨e3_0, e3_1, e3_2⟩ := idx3 t
  funext a; apply Fin.ext
  match a with
  | ⟨0, _⟩ => show win0_3.index t (0 : Fin 3) * 8 + 1 * cc.val = 8 * t.val + cc.val; omega
  | ⟨1, _⟩ => show win0_3.index t (1 : Fin 3) * 3 + 1 * o.val = o.val; omega
  | ⟨2, _⟩ => show win0_3.index t (2 : Fin 3) * 1 + 1 * k.val = k.val; omega
set_option maxHeartbeats 1000000 in
theorem emb4 (t : Fin cfg0.N) (cc : Fin 8) (o : Fin 3) (k : Fin 1) :
    ((cfg0.win 4).blk t).view.emb (ix3 cc o k) = (ix3 (chOf t cc) o k : S192x3x1.Idx) := by
  obtain ⟨e4_0, e4_1, e4_2⟩ := idx4 t
  funext a; apply Fin.ext
  match a with
  | ⟨0, _⟩ => show win0_4.index t (0 : Fin 3) * 8 + 1 * cc.val = 8 * t.val + cc.val; omega
  | ⟨1, _⟩ => show win0_4.index t (1 : Fin 3) * 3 + 1 * o.val = o.val; omega
  | ⟨2, _⟩ => show win0_4.index t (2 : Fin 3) * 1 + 1 * k.val = k.val; omega
set_option maxHeartbeats 1000000 in
theorem emb5 (t : Fin cfg0.N) (cc : Fin 8) (o : Fin 3) (k : Fin 3) :
    ((cfg0.win 5).blk t).view.emb (ix3 cc o k) = (ix3 (chOf t cc) o k : S192x3x3.Idx) := by
  obtain ⟨e5_0, e5_1, e5_2⟩ := idx5 t
  funext a; apply Fin.ext
  match a with
  | ⟨0, _⟩ => show win0_5.index t (0 : Fin 3) * 8 + 1 * cc.val = 8 * t.val + cc.val; omega
  | ⟨1, _⟩ => show win0_5.index t (1 : Fin 3) * 3 + 1 * o.val = o.val; omega
  | ⟨2, _⟩ => show win0_5.index t (2 : Fin 3) * 3 + 1 * k.val = k.val; omega
set_option maxHeartbeats 1000000 in
theorem emb6 (t : Fin cfg0.N) (cc : Fin 8) (o : Fin 3) (k : Fin 1) :
    ((cfg0.win 6).blk t).view.emb (ix3 cc o k) = (ix3 (chOf t cc) o k : S192x3x1.Idx) := by
  obtain ⟨e6_0, e6_1, e6_2⟩ := idx6 t
  funext a; apply Fin.ext
  match a with
  | ⟨0, _⟩ => show win0_6.index t (0 : Fin 3) * 8 + 1 * cc.val = 8 * t.val + cc.val; omega
  | ⟨1, _⟩ => show win0_6.index t (1 : Fin 3) * 3 + 1 * o.val = o.val; omega
  | ⟨2, _⟩ => show win0_6.index t (2 : Fin 3) * 1 + 1 * k.val = k.val; omega
set_option maxHeartbeats 1000000 in
theorem emb7 (t : Fin cfg0.N) (cc : Fin 8) (o : Fin 3) (k : Fin 1) :
    ((cfg0.win 7).blk t).view.emb (ix3 cc o k) = (ix3 (chOf t cc) o k : S192x3x1.Idx) := by
  obtain ⟨e7_0, e7_1, e7_2⟩ := idx7 t
  funext a; apply Fin.ext
  match a with
  | ⟨0, _⟩ => show win0_7.index t (0 : Fin 3) * 8 + 1 * cc.val = 8 * t.val + cc.val; omega
  | ⟨1, _⟩ => show win0_7.index t (1 : Fin 3) * 3 + 1 * o.val = o.val; omega
  | ⟨2, _⟩ => show win0_7.index t (2 : Fin 3) * 1 + 1 * k.val = k.val; omega
set_option maxHeartbeats 1000000 in
theorem emb8 (t : Fin cfg0.N) (cc : Fin 8) (o : Fin 3) (k : Fin 3) :
    ((cfg0.win 8).blk t).view.emb (ix3 cc o k) = (ix3 (chOf t cc) o k : S192x3x3.Idx) := by
  obtain ⟨e8_0, e8_1, e8_2⟩ := idx8 t
  funext a; apply Fin.ext
  match a with
  | ⟨0, _⟩ => show win0_8.index t (0 : Fin 3) * 8 + 1 * cc.val = 8 * t.val + cc.val; omega
  | ⟨1, _⟩ => show win0_8.index t (1 : Fin 3) * 3 + 1 * o.val = o.val; omega
  | ⟨2, _⟩ => show win0_8.index t (2 : Fin 3) * 3 + 1 * k.val = k.val; omega
set_option maxHeartbeats 1000000 in
theorem emb9 (t : Fin cfg0.N) (cc : Fin 8) (o : Fin 3) (k : Fin 1) :
    ((cfg0.win 9).blk t).view.emb (ix3 cc o k) = (ix3 (chOf t cc) o k : S192x3x1.Idx) := by
  obtain ⟨e9_0, e9_1, e9_2⟩ := idx9 t
  funext a; apply Fin.ext
  match a with
  | ⟨0, _⟩ => show win0_9.index t (0 : Fin 3) * 8 + 1 * cc.val = 8 * t.val + cc.val; omega
  | ⟨1, _⟩ => show win0_9.index t (1 : Fin 3) * 3 + 1 * o.val = o.val; omega
  | ⟨2, _⟩ => show win0_9.index t (2 : Fin 3) * 1 + 1 * k.val = k.val; omega
set_option maxHeartbeats 1000000 in
theorem emb10 (t : Fin cfg0.N) (cc : Fin 8) (o : Fin 3) (k : Fin 1) :
    ((cfg0.win 10).blk t).view.emb (ix3 cc o k) = (ix3 (chOf t cc) o k : S192x3x1.Idx) := by
  obtain ⟨e10_0, e10_1, e10_2⟩ := idx10 t
  funext a; apply Fin.ext
  match a with
  | ⟨0, _⟩ => show win0_10.index t (0 : Fin 3) * 8 + 1 * cc.val = 8 * t.val + cc.val; omega
  | ⟨1, _⟩ => show win0_10.index t (1 : Fin 3) * 3 + 1 * o.val = o.val; omega
  | ⟨2, _⟩ => show win0_10.index t (2 : Fin 3) * 1 + 1 * k.val = k.val; omega
set_option maxHeartbeats 1000000 in
theorem emb11 (t : Fin cfg0.N) (cc : Fin 8) (o : Fin 1) (k : Fin 3) :
    ((cfg0.win 11).blk t).view.emb (ix3 cc o k) = (ix3 (chOf t cc) o k : S192x1x3.Idx) := by
  obtain ⟨e11_0, e11_1, e11_2⟩ := idx11 t
  funext a; apply Fin.ext
  match a with
  | ⟨0, _⟩ => show win0_11.index t (0 : Fin 3) * 8 + 1 * cc.val = 8 * t.val + cc.val; omega
  | ⟨1, _⟩ => show win0_11.index t (1 : Fin 3) * 1 + 1 * o.val = o.val; omega
  | ⟨2, _⟩ => show win0_11.index t (2 : Fin 3) * 3 + 1 * k.val = k.val; omega
set_option maxHeartbeats 1000000 in
theorem emb12 (t : Fin cfg0.N) (cc : Fin 8) (o : Fin 1) (k : Fin 1) :
    ((cfg0.win 12).blk t).view.emb (ix3 cc o k) = (ix3 (chOf t cc) o k : S192x1x1.Idx) := by
  obtain ⟨e12_0, e12_1, e12_2⟩ := idx12 t
  funext a; apply Fin.ext
  match a with
  | ⟨0, _⟩ => show win0_12.index t (0 : Fin 3) * 8 + 1 * cc.val = 8 * t.val + cc.val; omega
  | ⟨1, _⟩ => show win0_12.index t (1 : Fin 3) * 1 + 1 * o.val = o.val; omega
  | ⟨2, _⟩ => show win0_12.index t (2 : Fin 3) * 1 + 1 * k.val = k.val; omega
set_option maxHeartbeats 1000000 in
theorem emb13 (t : Fin cfg0.N) (b cc : Fin 8) (p : Fin 4096) :
    ((cfg0.win 13).blk t).view.emb (ix3 b cc p) = (ix3 b (chOf t cc) p : S8x192x4096.Idx) := by
  obtain ⟨e13_0, e13_1, e13_2⟩ := idx13 t
  funext a; apply Fin.ext
  match a with
  | ⟨0, _⟩ => show win0_13.index t (0 : Fin 3) * 8 + 1 * b.val = b.val; omega
  | ⟨1, _⟩ => show win0_13.index t (1 : Fin 3) * 8 + 1 * cc.val = 8 * t.val + cc.val; omega
  | ⟨2, _⟩ => show win0_13.index t (2 : Fin 3) * 4096 + 1 * p.val = p.val; omega
set_option maxHeartbeats 1000000 in
theorem emb14 (t : Fin cfg0.N) (b cc : Fin 8) (p : Fin 4096) :
    ((cfg0.win 14).blk t).view.emb (ix3 b cc p) = (ix3 b (chOf t cc) p : S8x192x4096.Idx) := by
  obtain ⟨e14_0, e14_1, e14_2⟩ := idx14 t
  funext a; apply Fin.ext
  match a with
  | ⟨0, _⟩ => show win0_14.index t (0 : Fin 3) * 8 + 1 * b.val = b.val; omega
  | ⟨1, _⟩ => show win0_14.index t (1 : Fin 3) * 8 + 1 * cc.val = 8 * t.val + cc.val; omega
  | ⟨2, _⟩ => show win0_14.index t (2 : Fin 3) * 4096 + 1 * p.val = p.val; omega

/-! ## An input block's entry is its array's entry there -/

theorem blk0 (c : Dev nD) (t : Fin cfg0.N) (b cc : Fin 8) (p : Fin 4096) :
    iblk m c 0 t (ix3 b cc p) = A0 m c (ix3 b (chOf t cc) p) := by
  show V m c main_v7 (((cfg0.win 0).blk t).view.emb (ix3 b cc p)) = _
  rw [emb0]
theorem blk1 (c : Dev nD) (t : Fin cfg0.N) (b cc : Fin 8) (p : Fin 4096) :
    iblk m c 1 t (ix3 b cc p) = A1 m c (ix3 b (chOf t cc) p) := by
  show V m c main_v8 (((cfg0.win 1).blk t).view.emb (ix3 b cc p)) = _
  rw [emb1]
theorem blk2 (c : Dev nD) (t : Fin cfg0.N) (cc : Fin 8) (o : Fin 3) (k : Fin 1) :
    iblk m c 2 t (ix3 cc o k) = W0 m c (ix3 (chOf t cc) o k) := by
  show V m c main_v0 (((cfg0.win 2).blk t).view.emb (ix3 cc o k)) = _
  rw [emb2]
theorem blk3 (c : Dev nD) (t : Fin cfg0.N) (cc : Fin 8) (o : Fin 3) (k : Fin 1) :
    iblk m c 3 t (ix3 cc o k) = B0 m c (ix3 (chOf t cc) o k) := by
  show V m c main_arg3 (((cfg0.win 3).blk t).view.emb (ix3 cc o k)) = _
  rw [emb3]
theorem blk4 (c : Dev nD) (t : Fin cfg0.N) (cc : Fin 8) (o : Fin 3) (k : Fin 1) :
    iblk m c 4 t (ix3 cc o k) = F0 m c (ix3 (chOf t cc) o k) := by
  show V m c main_v4 (((cfg0.win 4).blk t).view.emb (ix3 cc o k)) = _
  rw [emb4]
theorem blk5 (c : Dev nD) (t : Fin cfg0.N) (cc : Fin 8) (o : Fin 3) (k : Fin 3) :
    iblk m c 5 t (ix3 cc o k) = W1 m c (ix3 (chOf t cc) o k) := by
  show V m c main_v1 (((cfg0.win 5).blk t).view.emb (ix3 cc o k)) = _
  rw [emb5]
theorem blk6 (c : Dev nD) (t : Fin cfg0.N) (cc : Fin 8) (o : Fin 3) (k : Fin 1) :
    iblk m c 6 t (ix3 cc o k) = B1 m c (ix3 (chOf t cc) o k) := by
  show V m c main_arg6 (((cfg0.win 6).blk t).view.emb (ix3 cc o k)) = _
  rw [emb6]
theorem blk7 (c : Dev nD) (t : Fin cfg0.N) (cc : Fin 8) (o : Fin 3) (k : Fin 1) :
    iblk m c 7 t (ix3 cc o k) = F1 m c (ix3 (chOf t cc) o k) := by
  show V m c main_v5 (((cfg0.win 7).blk t).view.emb (ix3 cc o k)) = _
  rw [emb7]
theorem blk8 (c : Dev nD) (t : Fin cfg0.N) (cc : Fin 8) (o : Fin 3) (k : Fin 3) :
    iblk m c 8 t (ix3 cc o k) = W2 m c (ix3 (chOf t cc) o k) := by
  show V m c main_v2 (((cfg0.win 8).blk t).view.emb (ix3 cc o k)) = _
  rw [emb8]
theorem blk9 (c : Dev nD) (t : Fin cfg0.N) (cc : Fin 8) (o : Fin 3) (k : Fin 1) :
    iblk m c 9 t (ix3 cc o k) = B2 m c (ix3 (chOf t cc) o k) := by
  show V m c main_arg9 (((cfg0.win 9).blk t).view.emb (ix3 cc o k)) = _
  rw [emb9]
theorem blk10 (c : Dev nD) (t : Fin cfg0.N) (cc : Fin 8) (o : Fin 3) (k : Fin 1) :
    iblk m c 10 t (ix3 cc o k) = F2 m c (ix3 (chOf t cc) o k) := by
  show V m c main_v6 (((cfg0.win 10).blk t).view.emb (ix3 cc o k)) = _
  rw [emb10]
theorem blk11 (c : Dev nD) (t : Fin cfg0.N) (cc : Fin 8) (o : Fin 1) (k : Fin 3) :
    iblk m c 11 t (ix3 cc o k) = W3 m c (ix3 (chOf t cc) o k) := by
  show V m c main_v3 (((cfg0.win 11).blk t).view.emb (ix3 cc o k)) = _
  rw [emb11]
theorem blk12 (c : Dev nD) (t : Fin cfg0.N) (cc : Fin 8) (o : Fin 1) (k : Fin 1) :
    iblk m c 12 t (ix3 cc o k) = B3 m c (ix3 (chOf t cc) o k) := by
  show V m c main_arg12 (((cfg0.win 12).blk t).view.emb (ix3 cc o k)) = _
  rw [emb12]

/-! ## The two results as functions of the region-entry arrays -/

/-- The first result array: the sum of the two big arrays, entry by entry. -/
def Gsum (c : Dev nD) : S8x192x4096.Idx → EReal := fun i => A0 m c i + A1 m c i

/-- The second: the likelihood of that sum under the chain of the entry's channel (first layer in the shared-product
    spelling, as the body computes it). -/
def Gshared (c : Dev nD) : S8x192x4096.Idx → EReal := fun i =>
  likShared (chanRaw (N := 192) (W0 m c) (B0 m c) (F0 m c) (W1 m c) (B1 m c) (F1 m c) (W2 m c) (B2 m c) (F2 m c) (W3 m c) (B3 m c) (i 1))
    (A0 m c i + A1 m c i)

/-! ## What a point writes back -/

theorem flushed13 (c : Dev nD) (t : Fin cfg0.N) :
    (dats m 0 c).flushed 13 t = ((cfg0.win 13).blk t).view.read (Elt Ideal) (Gsum m c) := by
  show (cfg0.win 13).cut (grid0.coords t) ((dats m 0 c).after 13 t) = _
  rw [after0_13]
  funext j
  obtain ⟨b, cc, p, rfl⟩ : ∃ (b cc : Fin 8) (p : Fin 4096), j = ix3 b cc p := ⟨j 0, j 1, j 2, eq_ix3 j⟩
  refine (sum_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) b cc p).trans ?_
  show _ = Gsum m c (((cfg0.win 13).blk t).view.emb (ix3 b cc p))
  rw [emb13, blk0, blk1]
  rfl

theorem flushed14 (c : Dev nD) (t : Fin cfg0.N) :
    (dats m 0 c).flushed 14 t = ((cfg0.win 14).blk t).view.read (Elt Ideal) (Gshared m c) := by
  show (cfg0.win 14).cut (grid0.coords t) ((dats m 0 c).after 14 t) = _
  rw [after0_14]
  funext j
  obtain ⟨b, cc, p, rfl⟩ : ∃ (b cc : Fin 8) (p : Fin 4096), j = ix3 b cc p := ⟨j 0, j 1, j 2, eq_ix3 j⟩
  refine (lik_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) b cc p).trans ?_
  show _ = Gshared m c (((cfg0.win 14).blk t).view.emb (ix3 b cc p))
  rw [emb14, blk0, blk1]
  show likShared _ _ = likShared _ _
  congr 1
  exact chanRaw_congr _ _ _ _ _ _ _ _ _ _ _ cc _ _ _ _ _ _ _ _ _ _ _ (chOf t cc)
    (fun o => blk2 m c t cc o 0) (fun o => blk3 m c t cc o 0) (fun o => blk4 m c t cc o 0) (fun o k => blk5 m c t cc o k)
    (fun o => blk6 m c t cc o 0) (fun o => blk7 m c t cc o 0) (fun o k => blk8 m c t cc o k) (fun o => blk9 m c t cc o 0)
    (fun o => blk10 m c t cc o 0) (fun k => blk11 m c t cc 0 k) (blk12 m c t cc 0 0)

/-! ## The row bands tile the channel axis -/

theorem mem_blk13 (t : Fin cfg0.N) (i : S8x192x4096.Idx) :
    i ∈ ((cfg0.win 13).blk t).view.set ↔ ∀ a : Fin 3, win0_13.index t a * S8x8x4096.size a ≤ (i a).val ∧ (i a).val < win0_13.index t a * S8x8x4096.size a + S8x8x4096.size a := by
  show i ∈ ((View.whole main_v9_0).slice (win0_13.rect t)).set ↔ _
  rw [View.set_slice_whole, Rect.mem_set_unit]
  exact Iff.rfl

set_option maxHeartbeats 1000000 in
theorem cover13 (i : S8x192x4096.Idx) : ∃ t : Fin cfg0.N, (cfg0.win 13).flush t = true ∧ i ∈ ((cfg0.win 13).blk t).view.set := by
  have h0 : (i 0).val < 8 := (i 0).isLt
  have h1 : (i 1).val < 192 := (i 1).isLt
  have h2 : (i 2).val < 4096 := (i 2).isLt
  have hN : (i 1).val / 8 < cfg0.N := by rw [show cfg0.N = 24 from N_0]; omega
  refine ⟨⟨(i 1).val / 8, hN⟩, flush0_13 _, ?_⟩
  rw [mem_blk13]
  obtain ⟨e13_0, e13_1, e13_2⟩ := idx13 ⟨(i 1).val / 8, hN⟩
  intro a
  match a with
  | ⟨0, _⟩ => show win0_13.index ⟨(i 1).val / 8, hN⟩ (0 : Fin 3) * 8 ≤ (i 0).val ∧ (i 0).val < win0_13.index ⟨(i 1).val / 8, hN⟩ (0 : Fin 3) * 8 + 8; omega
  | ⟨1, _⟩ => show win0_13.index ⟨(i 1).val / 8, hN⟩ (1 : Fin 3) * 8 ≤ (i 1).val ∧ (i 1).val < win0_13.index ⟨(i 1).val / 8, hN⟩ (1 : Fin 3) * 8 + 8; simp only [] at e13_1; omega
  | ⟨2, _⟩ => show win0_13.index ⟨(i 1).val / 8, hN⟩ (2 : Fin 3) * 4096 ≤ (i 2).val ∧ (i 2).val < win0_13.index ⟨(i 1).val / 8, hN⟩ (2 : Fin 3) * 4096 + 4096; omega

theorem mem_blk14 (t : Fin cfg0.N) (i : S8x192x4096.Idx) :
    i ∈ ((cfg0.win 14).blk t).view.set ↔ ∀ a : Fin 3, win0_14.index t a * S8x8x4096.size a ≤ (i a).val ∧ (i a).val < win0_14.index t a * S8x8x4096.size a + S8x8x4096.size a := by
  show i ∈ ((View.whole main_v9_1).slice (win0_14.rect t)).set ↔ _
  rw [View.set_slice_whole, Rect.mem_set_unit]
  exact Iff.rfl

set_option maxHeartbeats 1000000 in
theorem cover14 (i : S8x192x4096.Idx) : ∃ t : Fin cfg0.N, (cfg0.win 14).flush t = true ∧ i ∈ ((cfg0.win 14).blk t).view.set := by
  have h0 : (i 0).val < 8 := (i 0).isLt
  have h1 : (i 1).val < 192 := (i 1).isLt
  have h2 : (i 2).val < 4096 := (i 2).isLt
  have hN : (i 1).val / 8 < cfg0.N := by rw [show cfg0.N = 24 from N_0]; omega
  refine ⟨⟨(i 1).val / 8, hN⟩, flush0_14 _, ?_⟩
  rw [mem_blk14]
  obtain ⟨e14_0, e14_1, e14_2⟩ := idx14 ⟨(i 1).val / 8, hN⟩
  intro a
  match a with
  | ⟨0, _⟩ => show win0_14.index ⟨(i 1).val / 8, hN⟩ (0 : Fin 3) * 8 ≤ (i 0).val ∧ (i 0).val < win0_14.index ⟨(i 1).val / 8, hN⟩ (0 : Fin 3) * 8 + 8; omega
  | ⟨1, _⟩ => show win0_14.index ⟨(i 1).val / 8, hN⟩ (1 : Fin 3) * 8 ≤ (i 1).val ∧ (i 1).val < win0_14.index ⟨(i 1).val / 8, hN⟩ (1 : Fin 3) * 8 + 8; simp only [] at e14_1; omega
  | ⟨2, _⟩ => show win0_14.index ⟨(i 1).val / 8, hN⟩ (2 : Fin 3) * 4096 ≤ (i 2).val ∧ (i 2).val < win0_14.index ⟨(i 1).val / 8, hN⟩ (2 : Fin 3) * 4096 + 4096; omega

/-! ## The arrays after the run -/

theorem final13 (c : Dev nD) : (dats m 0 c).arrAt 13 cfg0.N = Gsum m c :=
  (dats m 0 c).arrAt_eq_of_cover 13 (Gsum m c) (fun t _ => flushed13 m c t) cover13

theorem final14 (c : Dev nD) : (dats m 0 c).arrAt 14 cfg0.N = Gshared m c :=
  (dats m 0 c).arrAt_eq_of_cover 14 (Gshared m c) (fun t _ => flushed14 m c t) cover14

end Cert.KernelIdeal.Whole

end
-- ==== Proof.Entry.lean ====
/-
  The arrays the region finds, in terms of the arguments. Before the region the program takes softplus of the four
  weight arrays (elementwise, by the same guarded formula each time), tanh of the three gate arrays, and views x and
  noise [8, 192, 64, 64] as [8, 192, 4096] (the 64 × 64 plane flattened row-major); the four bias arrays are used as
  they are.
-/
import proofs.«168000_j32736240730292_2_alg».proof.Proof.Whole
import Idealize.ShloMosaic.Lib.StableHlo.Run

set_option maxRecDepth 16384

noncomputable section

namespace Cert.KernelIdeal.Entry

open Cert.KernelIdeal Cert.KernelIdeal.Gen Cert.KernelIdeal.Whole Idealize.ShloMosaic Idealize.ShloMosaic.ValueIdx
open Idealize.ShloMosaic.TcCoe Idealize.SL.Sem Idealize.ShloMosaic.StableHlo
open Cert.Bottleneck

variable (m : (ℓ : Loc nD τ sig) → Buf (Elt Ideal) ℓ)

/-- Softplus of a whole array as the program spells it, over the broadcast zero z. -/
def spV {S : Shape} (z x : FVec Ideal S .f32) : FVec Ideal S .f32 :=
  select (cmpf .une (subf x z) (subf x z)) (addf x z)
    (addf (maximumf x z) (Host.log1p (Host.exp (Host.negf (Host.absf (subf x z))))))

/-- At an entry it is the scalar softplus of the entry. -/
theorem spV_apply {S : Shape} (h : S_.BroadcastsInDim S ![]) (x : FVec Ideal S .f32) (i : S.Idx) :
    spV (broadcastInDim S ![] h (constant S_ .f32 0x00000000#32)) x i = sp (x i) := rfl

set_option maxHeartbeats 2000000 in
theorem W0_vec (c : Dev nD) : W0 m c
    = spV (broadcastInDim S192x3x1 ![] bcast_S_S192x3x1 (constant S_ .f32 0x00000000#32)) (m ((c : Thread nD τ).loc main_arg2)) := by
  show (V m c main_v0 : S192x3x1.Idx → EReal) = _
  dsimp only [V, V0]
  simp only [hostOps0, hostOps0_1, hostOps0_2, hostOps0_3, hostOps0_4, List.flatten_cons, List.flatten_nil,
    List.append_nil, List.cons_append, List.nil_append]
  after_results
  all_goals rfl

set_option maxHeartbeats 2000000 in
theorem W1_vec (c : Dev nD) : W1 m c
    = spV (broadcastInDim S192x3x3 ![] bcast_S_S192x3x3 (constant S_ .f32 0x00000000#32)) (m ((c : Thread nD τ).loc main_arg5)) := by
  show (V m c main_v1 : S192x3x3.Idx → EReal) = _
  dsimp only [V, V0]
  simp only [hostOps0, hostOps0_1, hostOps0_2, hostOps0_3, hostOps0_4, List.flatten_cons, List.flatten_nil,
    List.append_nil, List.cons_append, List.nil_append]
  after_results
  all_goals rfl

set_option maxHeartbeats 2000000 in
theorem W2_vec (c : Dev nD) : W2 m c
    = spV (broadcastInDim S192x3x3 ![] bcast_S_S192x3x3 (constant S_ .f32 0x00000000#32)) (m ((c : Thread nD τ).loc main_arg8)) := by
  show (V m c main_v2 : S192x3x3.Idx → EReal) = _
  dsimp only [V, V0]
  simp only [hostOps0, hostOps0_1, hostOps0_2, hostOps0_3, hostOps0_4, List.flatten_cons, List.flatten_nil,
    List.append_nil, List.cons_append, List.nil_append]
  after_results
  all_goals rfl

set_option maxHeartbeats 2000000 in
theorem W3_vec (c : Dev nD) : W3 m c
    = spV (broadcastInDim S192x1x3 ![] bcast_S_S192x1x3 (constant S_ .f32 0x00000000#32)) (m ((c : Thread nD τ).loc main_arg11)) := by
  show (V m c main_v3 : S192x1x3.Idx → EReal) = _
  dsimp only [V, V0]
  simp only [hostOps0, hostOps0_1, hostOps0_2, hostOps0_3, hostOps0_4, List.flatten_cons, List.flatten_nil,
    List.append_nil, List.cons_append, List.nil_append]
  after_results
  all_goals rfl

set_option maxHeartbeats 2000000 in
theorem F0_vec (c : Dev nD) : F0 m c
    = Host.tanh (F := Ideal) (s := S192x3x1) (φ := .f32) (m ((c : Thread nD τ).loc main_arg4)) := by
  show (V m c main_v4 : S192x3x1.Idx → EReal) = _
  dsimp only [V, V0]
  simp only [hostOps0, hostOps0_1, hostOps0_2, hostOps0_3, hostOps0_4, List.flatten_cons, List.flatten_nil,
    List.append_nil, List.cons_append, List.nil_append]
  after_results
  all_goals rfl

set_option maxHeartbeats 2000000 in
theorem F1_vec (c : Dev nD) : F1 m c
    = Host.tanh (F := Ideal) (s := S192x3x1) (φ := .f32) (m ((c : Thread nD τ).loc main_arg7)) := by
  show (V m c main_v5 : S192x3x1.Idx → EReal) = _
  dsimp only [V, V0]
  simp only [hostOps0, hostOps0_1, hostOps0_2, hostOps0_3, hostOps0_4, List.flatten_cons, List.flatten_nil,
    List.append_nil, List.cons_append, List.nil_append]
  after_results
  all_goals rfl

set_option maxHeartbeats 2000000 in
theorem F2_vec (c : Dev nD) : F2 m c
    = Host.tanh (F := Ideal) (s := S192x3x1) (φ := .f32) (m ((c : Thread nD τ).loc main_arg10)) := by
  show (V m c main_v6 : S192x3x1.Idx → EReal) = _
  dsimp only [V, V0]
  simp only [hostOps0, hostOps0_1, hostOps0_2, hostOps0_3, hostOps0_4, List.flatten_cons, List.flatten_nil,
    List.append_nil, List.cons_append, List.nil_append]
  after_results
  all_goals rfl

set_option maxHeartbeats 2000000 in
theorem A0_vec (c : Dev nD) : A0 m c
    = shapeCast S8x192x4096 (m ((c : Thread nD τ).loc main_arg0)) shapeCasts_S8x192x64x64_S8x192x4096 := by
  show (V m c main_v7 : S8x192x4096.Idx → EReal) = _
  dsimp only [V, V0]
  simp only [hostOps0, hostOps0_1, hostOps0_2, hostOps0_3, hostOps0_4, List.flatten_cons, List.flatten_nil,
    List.append_nil, List.cons_append, List.nil_append]
  after_results
  all_goals rfl

set_option maxHeartbeats 2000000 in
theorem A1_vec (c : Dev nD) : A1 m c
    = shapeCast S8x192x4096 (m ((c : Thread nD τ).loc main_arg1)) shapeCasts_S8x192x64x64_S8x192x4096 := by
  show (V m c main_v8 : S8x192x4096.Idx → EReal) = _
  dsimp only [V, V0]
  simp only [hostOps0, hostOps0_1, hostOps0_2, hostOps0_3, hostOps0_4, List.flatten_cons, List.flatten_nil,
    List.append_nil, List.cons_append, List.nil_append]
  after_results
  all_goals rfl

theorem B0_vec (c : Dev nD) : B0 m c = m ((c : Thread nD τ).loc main_arg3) := V_main_arg3 m c
theorem B1_vec (c : Dev nD) : B1 m c = m ((c : Thread nD τ).loc main_arg6) := V_main_arg6 m c
theorem B2_vec (c : Dev nD) : B2 m c = m ((c : Thread nD τ).loc main_arg9) := V_main_arg9 m c
theorem B3_vec (c : Dev nD) : B3 m c = m ((c : Thread nD τ).loc main_arg12) := V_main_arg12 m c

end Cert.KernelIdeal.Entry

end
-- ==== Proof.Result.lean ====
/-
  The two results as whole-array functions of the thirteen argument arrays, over literal shapes and free of any program.
  The arrays are x, noise : [8, 192, 64, 64] (batch, channel, row, column) and, per channel, the raw parameters of the
  chain: w0, b0, f0 : [192, 3, 1];  w1 : [192, 3, 3], b1, f1 : [192, 3, 1];  w2, b2, f2 likewise;  w3 : [192, 1, 3],
  b3 : [192, 1, 1]. Channel ch's chain uses softplus of its weights and tanh of its gates. The first result is
  y = x + noise; the second is the likelihood of y under the chain of the entry's own channel.
-/
import proofs.«168000_j32736240730292_2_alg».proof.Proof.Spec
import Idealize.ShloMosaic.Lib.ValueIdx

noncomputable section

namespace Cert.Bottleneck

open Idealize.ShloMosaic Idealize.ShloMosaic.ValueIdx

/-- Channel ch's parameters read off the parameter arrays. -/
def chanOf (a2 a3 a4 : (⟨3, ![192, 3, 1]⟩ : Shape).Idx → EReal) (a5 : (⟨3, ![192, 3, 3]⟩ : Shape).Idx → EReal)
    (a6 a7 : (⟨3, ![192, 3, 1]⟩ : Shape).Idx → EReal) (a8 : (⟨3, ![192, 3, 3]⟩ : Shape).Idx → EReal)
    (a9 a10 : (⟨3, ![192, 3, 1]⟩ : Shape).Idx → EReal) (a11 : (⟨3, ![192, 1, 3]⟩ : Shape).Idx → EReal)
    (a12 : (⟨3, ![192, 1, 1]⟩ : Shape).Idx → EReal) (ch : Fin 192) : Chan where
  w0 o := sp (a2 (ix3 ch o (0 : Fin 1)))
  b0 o := a3 (ix3 ch o (0 : Fin 1))
  f0 o := Ideal.tanh (a4 (ix3 ch o (0 : Fin 1)))
  w1 o k := sp (a5 (ix3 ch o k))
  b1 o := a6 (ix3 ch o (0 : Fin 1))
  f1 o := Ideal.tanh (a7 (ix3 ch o (0 : Fin 1)))
  w2 o k := sp (a8 (ix3 ch o k))
  b2 o := a9 (ix3 ch o (0 : Fin 1))
  f2 o := Ideal.tanh (a10 (ix3 ch o (0 : Fin 1)))
  w3 k := sp (a11 (ix3 ch (0 : Fin 1) k))
  b3 := a12 (ix3 ch (0 : Fin 1) (0 : Fin 1))

/-- The first result: y = x + noise, entry by entry. -/
def Gy (a0 a1 : (⟨4, ![8, 192, 64, 64]⟩ : Shape).Idx → EReal) : (⟨4, ![8, 192, 64, 64]⟩ : Shape).Idx → EReal :=
  fun i => a0 i + a1 i

/-- The second result: the likelihood of y at (b, ch, r, q) under channel ch's chain. -/
def Glik (a0 a1 : (⟨4, ![8, 192, 64, 64]⟩ : Shape).Idx → EReal)
    (a2 a3 a4 : (⟨3, ![192, 3, 1]⟩ : Shape).Idx → EReal) (a5 : (⟨3, ![192, 3, 3]⟩ : Shape).Idx → EReal)
    (a6 a7 : (⟨3, ![192, 3, 1]⟩ : Shape).Idx → EReal) (a8 : (⟨3, ![192, 3, 3]⟩ : Shape).Idx → EReal)
    (a9 a10 : (⟨3, ![192, 3, 1]⟩ : Shape).Idx → EReal) (a11 : (⟨3, ![192, 1, 3]⟩ : Shape).Idx → EReal)
    (a12 : (⟨3, ![192, 1, 1]⟩ : Shape).Idx → EReal) : (⟨4, ![8, 192, 64, 64]⟩ : Shape).Idx → EReal :=
  fun i => lik (chanOf a2 a3 a4 a5 a6 a7 a8 a9 a10 a11 a12 (i 1)) (a0 i + a1 i)

end Cert.Bottleneck

end
-- ==== Proof.KRun.lean ====
/-
  The kernel's run, read: the two results and the arguments after every weakly fair execution. After the region the
  program views each [8, 192, 4096] result array as [8, 192, 64, 64] again. Entry (b, ch, r, q) of that view is entry
  (b, ch, 64 r + q) of the result array, whose big-array inputs there are x and noise at (b, ch, r, q): the two
  reshapes undo each other. So the first result is x + noise and the second the likelihood under channel ch's chain,
  first layer in the shared-product spelling.
-/
import proofs.«168000_j32736240730292_2_alg».proof.Proof.Entry
import proofs.«168000_j32736240730292_2_alg».proof.Proof.Result

set_option maxRecDepth 16384

noncomputable section

namespace Cert.KernelIdeal.Run

open Cert.KernelIdeal Cert.KernelIdeal.Gen Cert.KernelIdeal.Whole Cert.KernelIdeal.Entry
open Idealize.ShloMosaic Idealize.ShloMosaic.ValueIdx Idealize.ShloMosaic.TcCoe Idealize.SL.Sem Idealize.ShloMosaic.StableHlo
open Cert.Bottleneck
open Idealize.ShloMosaic.Pipeline (Dat)

variable (m : (ℓ : Loc nD τ sig) → Buf (Elt Ideal) ℓ) (ρ : Dev nD → PrngReg)

/-! ## The lines after the region -/

set_option maxHeartbeats 1000000 in
theorem tail10 (c : Dev nD) : Pipeline.afterTail₀ cfgs (dats m) 0 (V0 m) [hostOps1] c main_v10
    = shapeCast S8x192x64x64 (Gsum m c) shapeCasts_S8x192x4096_S8x192x64x64 := by
  unfold Pipeline.afterTail₀
  show StableHlo.after hostOps1 _ (Proc.devRef .tc main_v10) = _
  after_results
  exact congrArg (fun A : S8x192x4096.Idx → EReal => shapeCast S8x192x64x64 A shapeCasts_S8x192x4096_S8x192x64x64)
    ((Pipeline.withArrays_arr spec0 launch0.win.arr_inj c _ _ 13).trans (final13 m c))

set_option maxHeartbeats 1000000 in
theorem tail11 (c : Dev nD) : Pipeline.afterTail₀ cfgs (dats m) 0 (V0 m) [hostOps1] c main_v11
    = shapeCast S8x192x64x64 (Gshared m c) shapeCasts_S8x192x4096_S8x192x64x64 := by
  unfold Pipeline.afterTail₀
  show StableHlo.after hostOps1 _ (Proc.devRef .tc main_v11) = _
  after_results
  exact congrArg (fun A : S8x192x4096.Idx → EReal => shapeCast S8x192x64x64 A shapeCasts_S8x192x4096_S8x192x64x64)
    ((Pipeline.withArrays_arr spec0 launch0.win.arr_inj c _ _ 14).trans (final14 m c))

/-! ## The two reshapes undo each other -/

/-- Entry (b, ch, r, q) of the four-axis view sits at (b, ch, 64 r + q) of the three-axis array. -/
def flat (i : S8x192x64x64.Idx) : S8x192x4096.Idx :=
  ix3 (i 0) (i 1) ⟨(i 2).val * 64 + (i 3).val, by
    have h2 : (i 2).val < 64 := (i 2).isLt
    have h3 : (i 3).val < 64 := (i 3).isLt
    show (i 2).val * 64 + (i 3).val < 4096
    omega⟩

theorem flat_pos (i : S8x192x64x64.Idx) : (S8x192x4096.rowMajor (flat i)).val = (S8x192x64x64.rowMajor i).val := by
  rw [Shape.rowMajor_val_three, Shape.rowMajor_val_four]
  show ((i 0).val * 192 + (i 1).val) * 4096 + ((i 2).val * 64 + (i 3).val)
    = (((i 0).val * 192 + (i 1).val) * 64 + (i 2).val) * 64 + (i 3).val
  ring

theorem unflat {α : Type} (G : S8x192x4096.Idx → α) (h : S8x192x4096.ShapeCasts S8x192x64x64) (i : S8x192x64x64.Idx) :
    shapeCast S8x192x64x64 G h i = G (flat i) :=
  shapeCast_apply G h i (flat i) (flat_pos i)

theorem reflat {α : Type} (a : S8x192x64x64.Idx → α) (h : S8x192x64x64.ShapeCasts S8x192x4096) (i : S8x192x64x64.Idx) :
    shapeCast S8x192x4096 a h (flat i) = a i :=
  shapeCast_apply a h (flat i) i (flat_pos i).symm

/-- The likelihood with the first layer in its shared-product spelling, as a function of the thirteen arrays. -/
abbrev GlikShared (a0 a1 : (⟨4, ![8, 192, 64, 64]⟩ : Shape).Idx → EReal)
    (a2 a3 a4 : (⟨3, ![192, 3, 1]⟩ : Shape).Idx → EReal) (a5 : (⟨3, ![192, 3, 3]⟩ : Shape).Idx → EReal)
    (a6 a7 : (⟨3, ![192, 3, 1]⟩ : Shape).Idx → EReal) (a8 : (⟨3, ![192, 3, 3]⟩ : Shape).Idx → EReal)
    (a9 a10 : (⟨3, ![192, 3, 1]⟩ : Shape).Idx → EReal) (a11 : (⟨3, ![192, 1, 3]⟩ : Shape).Idx → EReal)
    (a12 : (⟨3, ![192, 1, 1]⟩ : Shape).Idx → EReal) : (⟨4, ![8, 192, 64, 64]⟩ : Shape).Idx → EReal :=
  fun i => likShared (chanOf a2 a3 a4 a5 a6 a7 a8 a9 a10 a11 a12 (i 1)) (a0 i + a1 i)

/-! ## The results as functions of the arguments -/

/-- The first result, entry by entry. -/
theorem sum_result (c : Dev nD) :
    shapeCast S8x192x64x64 (Gsum m c) shapeCasts_S8x192x4096_S8x192x64x64 = Gy (m ((c : Thread nD τ).loc main_arg0)) (m ((c : Thread nD τ).loc main_arg1)) := by
  funext i
  rw [unflat]
  show A0 m c (flat i) + A1 m c (flat i) = _
  rw [A0_vec, A1_vec, reflat, reflat]
  rfl

set_option maxHeartbeats 2000000 in
/-- The second result, entry by entry, still in the shared-product spelling. -/
theorem lik_result (c : Dev nD) :
    shapeCast S8x192x64x64 (Gshared m c) shapeCasts_S8x192x4096_S8x192x64x64
      = GlikShared (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  rw [unflat]
  show likShared (chanRaw (N := 192) (W0 m c) (B0 m c) (F0 m c) (W1 m c) (B1 m c) (F1 m c) (W2 m c) (B2 m c) (F2 m c) (W3 m c) (B3 m c) (i 1))
      (A0 m c (flat i) + A1 m c (flat i)) = _
  rw [A0_vec, A1_vec, reflat, reflat, W0_vec, W1_vec, W2_vec, W3_vec, F0_vec, F1_vec, F2_vec, B0_vec, B1_vec, B2_vec, B3_vec]
  rfl

/-! ## The run -/

/-- Every weakly fair execution of the program terminates with the first result at x + noise, the second at the
    shared-product likelihood, and the thirteen arguments as they were. -/
theorem run : θ_run defs (onTc (τ := τ) (main (F := Ideal))) ⟨m, fun _ => 0, ρ⟩ (fun r => ∀ c : Dev nD,
      r.2.mem ((c.tc : Thread nD τ).loc main_v10) = Gy (m ((c : Thread nD τ).loc main_arg0)) (m ((c : Thread nD τ).loc main_arg1))
      ∧ r.2.mem ((c.tc : Thread nD τ).loc main_v11)
          = GlikShared (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(((h c).2 main_v10 (Pipeline.mem_restRefs_of main_v10 (by decide) (by decide))).trans (tail10 m c)).trans (sum_result m c),
     (((h c).2 main_v11 (Pipeline.mem_restRefs_of main_v11 (by decide) (by decide))).trans (tail11 m c)).trans (lik_result m c),
     (((h c).2 main_arg0 (Pipeline.mem_restRefs_of main_arg0 (by decide) (by decide))).trans (W_main_arg0 m (dats m) c)),
     (((h c).2 main_arg1 (Pipeline.mem_restRefs_of main_arg1 (by decide) (by decide))).trans (W_main_arg1 m (dats m) c)),
     (((h c).2 main_arg2 (Pipeline.mem_restRefs_of main_arg2 (by decide) (by decide))).trans (W_main_arg2 m (dats m) c)),
     ((h c).1 3).trans ((((dats m) 0 c).arrAt_in 3 rfl _).trans ((A_eq m c 3).trans (V_main_arg3 m c))),
     (((h c).2 main_arg4 (Pipeline.mem_restRefs_of main_arg4 (by decide) (by decide))).trans (W_main_arg4 m (dats m) c)),
     (((h c).2 main_arg5 (Pipeline.mem_restRefs_of main_arg5 (by decide) (by decide))).trans (W_main_arg5 m (dats m) c)),
     ((h c).1 6).trans ((((dats m) 0 c).arrAt_in 6 rfl _).trans ((A_eq m c 6).trans (V_main_arg6 m c))),
     (((h c).2 main_arg7 (Pipeline.mem_restRefs_of main_arg7 (by decide) (by decide))).trans (W_main_arg7 m (dats m) c)),
     (((h c).2 main_arg8 (Pipeline.mem_restRefs_of main_arg8 (by decide) (by decide))).trans (W_main_arg8 m (dats m) c)),
     ((h c).1 9).trans ((((dats m) 0 c).arrAt_in 9 rfl _).trans ((A_eq m c 9).trans (V_main_arg9 m c))),
     (((h c).2 main_arg10 (Pipeline.mem_restRefs_of main_arg10 (by decide) (by decide))).trans (W_main_arg10 m (dats m) c)),
     (((h c).2 main_arg11 (Pipeline.mem_restRefs_of main_arg11 (by decide) (by decide))).trans (W_main_arg11 m (dats m) c)),
     ((h c).1 12).trans ((((dats m) 0 c).arrAt_in 12 rfl _).trans ((A_eq m c 12).trans (V_main_arg12 m c)))⟩)
    (run_main m ρ)

end Cert.KernelIdeal.Run

end
-- ==== Proof.RefValue.lean ====
/-
  The reference program computes the specification: its first result is y = x + noise and its second result is, entry
  by entry, the likelihood `lik` of y under the chain of the entry's own channel.

  The reference works channel-major. It transposes y to [192, 8, 64, 64] and flattens it to [192, 1, 32768], so that
  entry (ch, 0, n) with n = (b · 64 + r) · 64 + q holds y at (b, ch, r, q). Each layer of the chain is a contraction
  batched over the channel: its entry (ch, o, n) is the sum over k of the (softplus'd) weight at (ch, o, k) times the
  layer below at (ch, k, n), one term for the first layer and three for the others, read in the order k = 0, 1, 2; the
  bias and the gate are broadcast along n from (ch, o, 0). So every stage at (ch, ·, n) depends only on channel ch's
  parameters and on the stages below at the same ch and n, and the chain at (ch, 0, n) is `cum` of channel ch applied
  to the entry (ch, 0, n) of y ∓ 1/2. The chain is run twice, below and above y; the tail combines the two values
  pointwise; the last two stages undo the flattening and the transposition.

  No finiteness is used: the reference is the direct spelling of the first layer.
-/
import proofs.«168000_j32736240730292_2_alg».proof.Proof.Result
import proofs.«168000_j32736240730292_2_alg».proof.Proof.Gen.ReferenceIdeal.Read
import Idealize.ShloMosaic.Lib.IdealHost

noncomputable section

namespace Cert.ReferenceIdeal.RefValue

open Cert.ReferenceIdeal Cert.ReferenceIdeal.Read Idealize.ShloMosaic Idealize.ShloMosaic.ValueIdx Cert.Bottleneck

/-- The argument arrays' types, as the stages take them. -/
abbrev T4 := (⟨S8x192x64x64, .f32⟩ : BufTy).Contents (Elt Ideal)
abbrev T31 := (⟨S192x3x1, .f32⟩ : BufTy).Contents (Elt Ideal)
abbrev T33 := (⟨S192x3x3, .f32⟩ : BufTy).Contents (Elt Ideal)
abbrev T13 := (⟨S192x1x3, .f32⟩ : BufTy).Contents (Elt Ideal)
abbrev T11 := (⟨S192x1x1, .f32⟩ : BufTy).Contents (Elt Ideal)

/-- Two rank-3 indices with the same three coordinates are equal. -/
local macro "idx3" : tactic =>
  `(tactic| exact funext fun a => match a with | ⟨0, _⟩ => rfl | ⟨1, _⟩ => rfl | ⟨2, _⟩ => rfl)

/-! ### The chain below y (at y − 1/2): stages %6 … %35 -/

/-- The softplus stages of this copy of the chain, at an element. -/
theorem lo_sp0 (x : T31) (i : S192x3x1.Idx) : val_main_v5 (F := Ideal) x i = sp (x i) := rfl
theorem lo_sp1 (x : T33) (i : S192x3x3.Idx) : val_main_v14 (F := Ideal) x i = sp (x i) := rfl
theorem lo_sp2 (x : T33) (i : S192x3x3.Idx) : val_main_v23 (F := Ideal) x i = sp (x i) := rfl
theorem lo_sp3 (x : T13) (i : S192x1x3.Idx) : val_main_v32 (F := Ideal) x i = sp (x i) := rfl

/-- Layer 0 at (ch, o, n): the contraction has one term, the bias and the gate are read at (ch, o, 0). -/
theorem lo_hid0 (x0 x1 : T4) (x2 x3 x4 : T31) (x5 : T33) (x6 x7 : T31) (x8 : T33) (x9 x10 : T31) (x11 : T13) (x12 : T11) (ch : Fin 192) (o : Fin 3) (n : Fin 32768) :
    val_main_v13 (F := Ideal) x0 x1 x2 x3 x4 (ix3 ch o n)
      = hid0 (chanOf x2 x3 x4 x5 x6 x7 x8 x9 x10 x11 x12 ch) (val_main_v4 (F := Ideal) x0 x1 (ix3 ch (0 : Fin 1) n)) o := by
  have el : lidx_main_v6 (ix3 ch o n) (0 : Fin 1) = ix3 ch o (0 : Fin 1) := by idx3
  have er : ridx_main_v6 (ix3 ch o n) (0 : Fin 1) = ix3 ch (0 : Fin 1) n := by idx3
  have eb : idx_main_v7 (ix3 ch o n) = ix3 ch o (0 : Fin 1) := by idx3
  have ef : idx_main_v11 (ix3 ch o n) = ix3 ch o (0 : Fin 1) := by idx3
  rw [val_main_v13_apply, val_main_v12_apply, val_main_v11_apply, val_main_v10_apply, val_main_v9_apply, val_main_v8_apply, val_main_v7_apply, val_main_v6_apply, Fin.sum_univ_one, el, er, eb, ef, lo_sp0]
  rfl

/-- Layer 1 at (ch, o, n): the contraction runs over the three rows (ch, k, n) of the layer below. -/
theorem lo_hid1 (x0 x1 : T4) (x2 x3 x4 : T31) (x5 : T33) (x6 x7 : T31) (x8 : T33) (x9 x10 : T31) (x11 : T13) (x12 : T11) (ch : Fin 192) (o : Fin 3) (n : Fin 32768) :
    val_main_v22 (F := Ideal) x0 x1 x2 x3 x4 x5 x6 x7 (ix3 ch o n)
      = hid1 (chanOf x2 x3 x4 x5 x6 x7 x8 x9 x10 x11 x12 ch) (fun k => val_main_v13 (F := Ideal) x0 x1 x2 x3 x4 (ix3 ch k n)) o := by
  have el (k : Fin 3) : lidx_main_v15 (ix3 ch o n) k = ix3 ch o k := by idx3
  have er (k : Fin 3) : ridx_main_v15 (ix3 ch o n) k = ix3 ch k n := by idx3
  have eb : idx_main_v16 (ix3 ch o n) = ix3 ch o (0 : Fin 1) := by idx3
  have ef : idx_main_v20 (ix3 ch o n) = ix3 ch o (0 : Fin 1) := by idx3
  rw [val_main_v22_apply, val_main_v21_apply, val_main_v20_apply, val_main_v19_apply, val_main_v18_apply, val_main_v17_apply, val_main_v16_apply, val_main_v15_apply, Fin.sum_univ_three]
  simp only [el, er, eb, ef, lo_sp1]
  rfl

/-- Layer 2 at (ch, o, n). -/
theorem lo_hid2 (x0 x1 : T4) (x2 x3 x4 : T31) (x5 : T33) (x6 x7 : T31) (x8 : T33) (x9 x10 : T31) (x11 : T13) (x12 : T11) (ch : Fin 192) (o : Fin 3) (n : Fin 32768) :
    val_main_v31 (F := Ideal) x0 x1 x2 x3 x4 x5 x6 x7 x8 x9 x10 (ix3 ch o n)
      = hid2 (chanOf x2 x3 x4 x5 x6 x7 x8 x9 x10 x11 x12 ch) (fun k => val_main_v22 (F := Ideal) x0 x1 x2 x3 x4 x5 x6 x7 (ix3 ch k n)) o := by
  have el (k : Fin 3) : lidx_main_v24 (ix3 ch o n) k = ix3 ch o k := by idx3
  have er (k : Fin 3) : ridx_main_v24 (ix3 ch o n) k = ix3 ch k n := by idx3
  have eb : idx_main_v25 (ix3 ch o n) = ix3 ch o (0 : Fin 1) := by idx3
  have ef : idx_main_v29 (ix3 ch o n) = ix3 ch o (0 : Fin 1) := by idx3
  rw [val_main_v31_apply, val_main_v30_apply, val_main_v29_apply, val_main_v28_apply, val_main_v27_apply, val_main_v26_apply, val_main_v25_apply, val_main_v24_apply, Fin.sum_univ_three]
  simp only [el, er, eb, ef, lo_sp2]
  rfl

/-- The last layer at (ch, 0, n): three terms and the bias at (ch, 0, 0), no gate. -/
theorem lo_logit (x0 x1 : T4) (x2 x3 x4 : T31) (x5 : T33) (x6 x7 : T31) (x8 : T33) (x9 x10 : T31) (x11 : T13) (x12 : T11) (ch : Fin 192) (n : Fin 32768) :
    val_main_v35 (F := Ideal) x0 x1 x2 x3 x4 x5 x6 x7 x8 x9 x10 x11 x12 (ix3 ch (0 : Fin 1) n)
      = logit (chanOf x2 x3 x4 x5 x6 x7 x8 x9 x10 x11 x12 ch) (fun k => val_main_v31 (F := Ideal) x0 x1 x2 x3 x4 x5 x6 x7 x8 x9 x10 (ix3 ch k n)) := by
  have el (k : Fin 3) : lidx_main_v33 (ix3 ch (0 : Fin 1) n) k = ix3 ch (0 : Fin 1) k := by idx3
  have er (k : Fin 3) : ridx_main_v33 (ix3 ch (0 : Fin 1) n) k = ix3 ch k n := by idx3
  have eb : idx_main_v34 (ix3 ch (0 : Fin 1) n) = ix3 ch (0 : Fin 1) (0 : Fin 1) := by idx3
  rw [val_main_v35_apply, val_main_v34_apply, val_main_v33_apply, Fin.sum_univ_three]
  simp only [el, er, eb, lo_sp3]
  rfl

/-- The whole chain below y (at y − 1/2), at (ch, 0, n). -/
theorem lo_cum (x0 x1 : T4) (x2 x3 x4 : T31) (x5 : T33) (x6 x7 : T31) (x8 : T33) (x9 x10 : T31) (x11 : T13) (x12 : T11) (ch : Fin 192) (n : Fin 32768) :
    val_main_v35 (F := Ideal) x0 x1 x2 x3 x4 x5 x6 x7 x8 x9 x10 x11 x12 (ix3 ch (0 : Fin 1) n)
      = cum (chanOf x2 x3 x4 x5 x6 x7 x8 x9 x10 x11 x12 ch) (val_main_v4 (F := Ideal) x0 x1 (ix3 ch (0 : Fin 1) n)) := by
  rw [lo_logit]
  simp only [lo_hid2 x0 x1 x2 x3 x4 x5 x6 x7 x8 x9 x10 x11 x12, lo_hid1 x0 x1 x2 x3 x4 x5 x6 x7 x8 x9 x10 x11 x12, lo_hid0 x0 x1 x2 x3 x4 x5 x6 x7 x8 x9 x10 x11 x12]
  rfl

/-! ### The chain above y (at y + 1/2): stages %39 … %68 -/

/-- The softplus stages of this copy of the chain, at an element. -/
theorem hi_sp0 (x : T31) (i : S192x3x1.Idx) : val_main_v38 (F := Ideal) x i = sp (x i) := rfl
theorem hi_sp1 (x : T33) (i : S192x3x3.Idx) : val_main_v47 (F := Ideal) x i = sp (x i) := rfl
theorem hi_sp2 (x : T33) (i : S192x3x3.Idx) : val_main_v56 (F := Ideal) x i = sp (x i) := rfl
theorem hi_sp3 (x : T13) (i : S192x1x3.Idx) : val_main_v65 (F := Ideal) x i = sp (x i) := rfl

/-- Layer 0 at (ch, o, n): the contraction has one term, the bias and the gate are read at (ch, o, 0). -/
theorem hi_hid0 (x0 x1 : T4) (x2 x3 x4 : T31) (x5 : T33) (x6 x7 : T31) (x8 : T33) (x9 x10 : T31) (x11 : T13) (x12 : T11) (ch : Fin 192) (o : Fin 3) (n : Fin 32768) :
    val_main_v46 (F := Ideal) x0 x1 x2 x3 x4 (ix3 ch o n)
      = hid0 (chanOf x2 x3 x4 x5 x6 x7 x8 x9 x10 x11 x12 ch) (val_main_v37 (F := Ideal) x0 x1 (ix3 ch (0 : Fin 1) n)) o := by
  have el : lidx_main_v39 (ix3 ch o n) (0 : Fin 1) = ix3 ch o (0 : Fin 1) := by idx3
  have er : ridx_main_v39 (ix3 ch o n) (0 : Fin 1) = ix3 ch (0 : Fin 1) n := by idx3
  have eb : idx_main_v40 (ix3 ch o n) = ix3 ch o (0 : Fin 1) := by idx3
  have ef : idx_main_v44 (ix3 ch o n) = ix3 ch o (0 : Fin 1) := by idx3
  rw [val_main_v46_apply, val_main_v45_apply, val_main_v44_apply, val_main_v43_apply, val_main_v42_apply, val_main_v41_apply, val_main_v40_apply, val_main_v39_apply, Fin.sum_univ_one, el, er, eb, ef, hi_sp0]
  rfl

/-- Layer 1 at (ch, o, n): the contraction runs over the three rows (ch, k, n) of the layer below. -/
theorem hi_hid1 (x0 x1 : T4) (x2 x3 x4 : T31) (x5 : T33) (x6 x7 : T31) (x8 : T33) (x9 x10 : T31) (x11 : T13) (x12 : T11) (ch : Fin 192) (o : Fin 3) (n : Fin 32768) :
    val_main_v55 (F := Ideal) x0 x1 x2 x3 x4 x5 x6 x7 (ix3 ch o n)
      = hid1 (chanOf x2 x3 x4 x5 x6 x7 x8 x9 x10 x11 x12 ch) (fun k => val_main_v46 (F := Ideal) x0 x1 x2 x3 x4 (ix3 ch k n)) o := by
  have el (k : Fin 3) : lidx_main_v48 (ix3 ch o n) k = ix3 ch o k := by idx3
  have er (k : Fin 3) : ridx_main_v48 (ix3 ch o n) k = ix3 ch k n := by idx3
  have eb : idx_main_v49 (ix3 ch o n) = ix3 ch o (0 : Fin 1) := by idx3
  have ef : idx_main_v53 (ix3 ch o n) = ix3 ch o (0 : Fin 1) := by idx3
  rw [val_main_v55_apply, val_main_v54_apply, val_main_v53_apply, val_main_v52_apply, val_main_v51_apply, val_main_v50_apply, val_main_v49_apply, val_main_v48_apply, Fin.sum_univ_three]
  simp only [el, er, eb, ef, hi_sp1]
  rfl

/-- Layer 2 at (ch, o, n). -/
theorem hi_hid2 (x0 x1 : T4) (x2 x3 x4 : T31) (x5 : T33) (x6 x7 : T31) (x8 : T33) (x9 x10 : T31) (x11 : T13) (x12 : T11) (ch : Fin 192) (o : Fin 3) (n : Fin 32768) :
    val_main_v64 (F := Ideal) x0 x1 x2 x3 x4 x5 x6 x7 x8 x9 x10 (ix3 ch o n)
      = hid2 (chanOf x2 x3 x4 x5 x6 x7 x8 x9 x10 x11 x12 ch) (fun k => val_main_v55 (F := Ideal) x0 x1 x2 x3 x4 x5 x6 x7 (ix3 ch k n)) o := by
  have el (k : Fin 3) : lidx_main_v57 (ix3 ch o n) k = ix3 ch o k := by idx3
  have er (k : Fin 3) : ridx_main_v57 (ix3 ch o n) k = ix3 ch k n := by idx3
  have eb : idx_main_v58 (ix3 ch o n) = ix3 ch o (0 : Fin 1) := by idx3
  have ef : idx_main_v62 (ix3 ch o n) = ix3 ch o (0 : Fin 1) := by idx3
  rw [val_main_v64_apply, val_main_v63_apply, val_main_v62_apply, val_main_v61_apply, val_main_v60_apply, val_main_v59_apply, val_main_v58_apply, val_main_v57_apply, Fin.sum_univ_three]
  simp only [el, er, eb, ef, hi_sp2]
  rfl

/-- The last layer at (ch, 0, n): three terms and the bias at (ch, 0, 0), no gate. -/
theorem hi_logit (x0 x1 : T4) (x2 x3 x4 : T31) (x5 : T33) (x6 x7 : T31) (x8 : T33) (x9 x10 : T31) (x11 : T13) (x12 : T11) (ch : Fin 192) (n : Fin 32768) :
    val_main_v68 (F := Ideal) x0 x1 x2 x3 x4 x5 x6 x7 x8 x9 x10 x11 x12 (ix3 ch (0 : Fin 1) n)
      = logit (chanOf x2 x3 x4 x5 x6 x7 x8 x9 x10 x11 x12 ch) (fun k => val_main_v64 (F := Ideal) x0 x1 x2 x3 x4 x5 x6 x7 x8 x9 x10 (ix3 ch k n)) := by
  have el (k : Fin 3) : lidx_main_v66 (ix3 ch (0 : Fin 1) n) k = ix3 ch (0 : Fin 1) k := by idx3
  have er (k : Fin 3) : ridx_main_v66 (ix3 ch (0 : Fin 1) n) k = ix3 ch k n := by idx3
  have eb : idx_main_v67 (ix3 ch (0 : Fin 1) n) = ix3 ch (0 : Fin 1) (0 : Fin 1) := by idx3
  rw [val_main_v68_apply, val_main_v67_apply, val_main_v66_apply, Fin.sum_univ_three]
  simp only [el, er, eb, hi_sp3]
  rfl

/-- The whole chain above y (at y + 1/2), at (ch, 0, n). -/
theorem hi_cum (x0 x1 : T4) (x2 x3 x4 : T31) (x5 : T33) (x6 x7 : T31) (x8 : T33) (x9 x10 : T31) (x11 : T13) (x12 : T11) (ch : Fin 192) (n : Fin 32768) :
    val_main_v68 (F := Ideal) x0 x1 x2 x3 x4 x5 x6 x7 x8 x9 x10 x11 x12 (ix3 ch (0 : Fin 1) n)
      = cum (chanOf x2 x3 x4 x5 x6 x7 x8 x9 x10 x11 x12 ch) (val_main_v37 (F := Ideal) x0 x1 (ix3 ch (0 : Fin 1) n)) := by
  rw [hi_logit]
  simp only [hi_hid2 x0 x1 x2 x3 x4 x5 x6 x7 x8 x9 x10 x11 x12, hi_hid1 x0 x1 x2 x3 x4 x5 x6 x7 x8 x9 x10 x11 x12, hi_hid0 x0 x1 x2 x3 x4 x5 x6 x7 x8 x9 x10 x11 x12]
  rfl

/-! ### The likelihood from the two chain values: stages %69 … %89 -/

/-- The logistic function as the program spells it: 1 / (1 + e^(−z)), with the float pattern of one for 1. -/
theorem logistic_spelt (z : EReal) :
    Ideal.div (Ideal.ofBits .f32 0x3F800000#32) (Ideal.ofBits .f32 0x3F800000#32 + Ideal.exp (-z)) = Ideal.logistic z := by
  rw [Ideal.ofBits_one_f32]; rfl

/-- Stage %89 at any index is the likelihood of the two chain values %35 (below) and %68 (above) at that index:
    s = −sign (lower + upper), the two logistic values of s · upper and s · lower, the absolute value of their
    difference as max (d, −d), and the floor. -/
theorem tail_at (x0 x1 : T4) (x2 x3 x4 : T31) (x5 : T33) (x6 x7 : T31) (x8 : T33) (x9 x10 : T31) (x11 : T13) (x12 : T11) (i : S192x1x32768.Idx) :
    val_main_v89 (F := Ideal) x0 x1 x2 x3 x4 x5 x6 x7 x8 x9 x10 x11 x12 i = tail (val_main_v35 (F := Ideal) x0 x1 x2 x3 x4 x5 x6 x7 x8 x9 x10 x11 x12 i) (val_main_v68 (F := Ideal) x0 x1 x2 x3 x4 x5 x6 x7 x8 x9 x10 x11 x12 i) := by
  have hu : val_main_v78 (F := Ideal) x0 x1 x2 x3 x4 x5 x6 x7 x8 x9 x10 x11 x12 i
      = Ideal.logistic (-(Ideal.sign (val_main_v35 (F := Ideal) x0 x1 x2 x3 x4 x5 x6 x7 x8 x9 x10 x11 x12 i + val_main_v68 (F := Ideal) x0 x1 x2 x3 x4 x5 x6 x7 x8 x9 x10 x11 x12 i)) * val_main_v68 (F := Ideal) x0 x1 x2 x3 x4 x5 x6 x7 x8 x9 x10 x11 x12 i) :=
    logistic_spelt _
  have hl : val_main_v85 (F := Ideal) x0 x1 x2 x3 x4 x5 x6 x7 x8 x9 x10 x11 x12 i
      = Ideal.logistic (-(Ideal.sign (val_main_v35 (F := Ideal) x0 x1 x2 x3 x4 x5 x6 x7 x8 x9 x10 x11 x12 i + val_main_v68 (F := Ideal) x0 x1 x2 x3 x4 x5 x6 x7 x8 x9 x10 x11 x12 i)) * val_main_v35 (F := Ideal) x0 x1 x2 x3 x4 x5 x6 x7 x8 x9 x10 x11 x12 i) :=
    logistic_spelt _
  have h : val_main_v89 (F := Ideal) x0 x1 x2 x3 x4 x5 x6 x7 x8 x9 x10 x11 x12 i
      = max (max (val_main_v78 (F := Ideal) x0 x1 x2 x3 x4 x5 x6 x7 x8 x9 x10 x11 x12 i - val_main_v85 (F := Ideal) x0 x1 x2 x3 x4 x5 x6 x7 x8 x9 x10 x11 x12 i) (-(val_main_v78 (F := Ideal) x0 x1 x2 x3 x4 x5 x6 x7 x8 x9 x10 x11 x12 i - val_main_v85 (F := Ideal) x0 x1 x2 x3 x4 x5 x6 x7 x8 x9 x10 x11 x12 i)))
          (Ideal.ofBits .f32 0x3089705F#32) := rfl
  rw [h, hu, hl]
  rfl

/-! ### The two layout ends, and the results -/

/-- The first result is y = x + noise. -/
theorem y_eq (x0 x1 : T4) : val_main_v0 (F := Ideal) x0 x1 = Gy x0 x1 := rfl

/-- The second result. Entry (b, ch, r, q) of the result is entry (ch, 0, n) of the channel-major arrays with
    n = (b · 64 + r) · 64 + q (the transposition exchanges batch and channel, the reshape flattens batch, row and column
    in row-major order), and entry (ch, 0, n) of the channel-major y is y at (b, ch, r, q) again; in between, every stage
    keeps the channel ch and the position n. -/
theorem lik_eq (x0 x1 : T4) (x2 x3 x4 : T31) (x5 : T33) (x6 x7 : T31) (x8 : T33) (x9 x10 : T31) (x11 : T13) (x12 : T11) :
    val_main_v91 (F := Ideal) x0 x1 x2 x3 x4 x5 x6 x7 x8 x9 x10 x11 x12 = Glik x0 x1 x2 x3 x4 x5 x6 x7 x8 x9 x10 x11 x12 := by
  funext i
  obtain ⟨b, ch, r, q, rfl⟩ : ∃ (b : Fin 8) (ch : Fin 192) (r q : Fin 64), i = ix4 b ch r q :=
    ⟨i 0, i 1, i 2, i 3, eq_ix4 i⟩
  have hb := b.isLt
  have hc := ch.isLt
  have hr := r.isLt
  have hq := q.isLt
  obtain ⟨n, hn⟩ : ∃ n : Fin 32768, n.val = (b.val * 64 + r.val) * 64 + q.val := ⟨⟨(b.val * 64 + r.val) * 64 + q.val, by omega⟩, rfl⟩
  have eo : idx_main_v90 (idx_main_v91 (ix4 b ch r q)) = ix3 ch (0 : Fin 1) n := by
    funext a
    match a with
    | ⟨0, _⟩ => exact Fin.ext (by show (((ch.val * 8 + b.val) * 64 + r.val) * 64 + q.val) / 32768 = ch.val; omega)
    | ⟨1, _⟩ => rfl
    | ⟨2, _⟩ => exact Fin.ext (by show (((ch.val * 8 + b.val) * 64 + r.val) * 64 + q.val) % 32768 = n.val; omega)
  have ei : idx_main_v1 (idx_main_v2 (ix3 ch (0 : Fin 1) n)) = ix4 b ch r q := by
    funext a
    match a with
    | ⟨0, _⟩ => exact Fin.ext (by show ((ch.val * 1 + 0) * 32768 + n.val) / 4096 % 8 = b.val; omega)
    | ⟨1, _⟩ => exact Fin.ext (by show ((ch.val * 1 + 0) * 32768 + n.val) / 32768 = ch.val; omega)
    | ⟨2, _⟩ => exact Fin.ext (by show ((ch.val * 1 + 0) * 32768 + n.val) / 64 % 64 = r.val; omega)
    | ⟨3, _⟩ => exact Fin.ext (by show ((ch.val * 1 + 0) * 32768 + n.val) % 64 = q.val; omega)
  have elo : val_main_v4 (F := Ideal) x0 x1 (ix3 ch (0 : Fin 1) n)
      = (x0 (ix4 b ch r q) + x1 (ix4 b ch r q)) - Ideal.ofBits .f32 0x3F000000#32 := by
    rw [val_main_v4_apply, val_main_v2_apply, val_main_v1_apply, ei]
    rfl
  have ehi : val_main_v37 (F := Ideal) x0 x1 (ix3 ch (0 : Fin 1) n)
      = (x0 (ix4 b ch r q) + x1 (ix4 b ch r q)) + Ideal.ofBits .f32 0x3F000000#32 := by
    rw [val_main_v37_apply, val_main_v2_apply, val_main_v1_apply, ei]
    rfl
  rw [val_main_v91_apply, val_main_v90_apply, eo, tail_at, lo_cum, hi_cum, elo, ehi]
  rfl

end Cert.ReferenceIdeal.RefValue

end
-- ==== Proof.Finite.lean ====
/-
  Finiteness of the inputs, read off the precondition. The precondition is one bit: the conjunction, over the thirteen
  argument arrays, of "every entry x has |x| < +∞", each array's part being the conjunction of its entries' bits. An
  extended real x with max (x, −x) < +∞ is neither +∞ nor −∞, so it is a real number. The conjunction of the thirteen
  parts is nested to the left, the first array innermost; the parts of the first four arrays (x, noise, and the first
  layer's raw weights and biases) are the ones the shared-product spelling of the first layer needs.
-/
import proofs.«168000_j32736240730292_2_alg».proof.Pre_finite_inputs
import Idealize.ShloMosaic.Lib.ReduceAll
import Idealize.ShloMosaic.Lib.ValueIdx
import Idealize.ShloMosaic.PureOps.Ideal.Laws

noncomputable section

namespace Cert.Bottleneck.Finite

open Idealize.ShloMosaic Cert.Pre_finite_inputs

variable [Cert.Pre_finite_inputs.Facts]

/-- The scalar shape has one index. -/
instance : Subsingleton S_.Idx := ⟨fun a b => funext fun d => d.elim0⟩

/-- An extended real whose absolute value max (x, −x) is strictly below +∞ (the float pattern 0x7F800000) is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < (⊤ : EReal) := by
    by_contra hn
    simp [Ideal.cmp, hn] at h
  induction x using EReal.rec with
  | bot => simp at hlt
  | coe r => exact ⟨r, rfl⟩
  | top => simp at hlt

/-- One array's part of the precondition: if the conjunction over all entries of "|x| < +∞" is 1, every entry is real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := fun i =>
  real_of_abs_lt (a i) (Host.reduce_andi_all _ _ hr hu _ e i)

/-- Under the precondition every entry of x, of the noise, and of the first layer's raw weights and biases is real. -/
theorem first_four (a0 a1 : FVec Ideal S8x192x64x64 .f32) (a2 a3 a4 : FVec Ideal S192x3x1 .f32)
    (a5 : FVec Ideal S192x3x3 .f32) (a6 a7 : FVec Ideal S192x3x1 .f32) (a8 : FVec Ideal S192x3x3 .f32)
    (a9 a10 : FVec Ideal S192x3x1 .f32) (a11 : FVec Ideal S192x1x3 .f32) (a12 : FVec Ideal S192x1x1 .f32)
    (h : Cert.Pre_finite_inputs.fn (F := Ideal) a0 a1 a2 a3 a4 a5 a6 a7 a8 a9 a10 a11 a12 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have e := congrFun h ValueIdx.ix0
  dsimp only [Cert.Pre_finite_inputs.fn, Cert.Pre_finite_inputs.fn_part1, Cert.Pre_finite_inputs.fn_part2,
    Cert.Pre_finite_inputs.fn_part3] at e
  -- the parts of the arrays 12, 11, …, 4, outermost first
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  -- then the parts of the arrays 3, 2, 1 and 0
  obtain ⟨e, e3⟩ := IntOp.andi_eq_one.1 e
  obtain ⟨e, e2⟩ := IntOp.andi_eq_one.1 e
  obtain ⟨e0, e1⟩ := IntOp.andi_eq_one.1 e
  exact ⟨all_real a0 _ _ _ e0, all_real a1 _ _ _ e1, all_real a2 _ _ _ e2, all_real a3 _ _ _ e3⟩

end Cert.Bottleneck.Finite

end
-- ==== Proof.Bridge.lean ====
/-
  Under the precondition the two spellings of the likelihood agree on every entry. The shared-product spelling of the
  first layer, (w · y + b) ∓ w · 1/2, equals the direct one, w · (y ∓ 1/2) + b, when w, y and b are real numbers. The
  precondition makes every entry of x, of the noise, and of the first layer's raw weights and biases real; hence
  y = x + noise is real (a sum of two reals), the weight w = softplus (raw weight) is real (softplus of a real is real),
  and the bias is real.
-/
import proofs.«168000_j32736240730292_2_alg».proof.Proof.Result
import proofs.«168000_j32736240730292_2_alg».proof.Proof.Finite

noncomputable section

namespace Cert.Bottleneck.Bridge

open Idealize.ShloMosaic Idealize.ShloMosaic.ValueIdx Cert.Pre_finite_inputs

/-- The likelihood with the shared-product first layer is the specification's likelihood, entry by entry. -/
theorem shared_eq [Cert.Pre_finite_inputs.Facts] (a0 a1 : FVec Ideal S8x192x64x64 .f32) (a2 a3 a4 : FVec Ideal S192x3x1 .f32)
    (a5 : FVec Ideal S192x3x3 .f32) (a6 a7 : FVec Ideal S192x3x1 .f32) (a8 : FVec Ideal S192x3x3 .f32)
    (a9 a10 : FVec Ideal S192x3x1 .f32) (a11 : FVec Ideal S192x1x3 .f32) (a12 : FVec Ideal S192x1x1 .f32)
    (h : Cert.Pre_finite_inputs.fn (F := Ideal) a0 a1 a2 a3 a4 a5 a6 a7 a8 a9 a10 a11 a12 = fun _ => 1#1) :
    (fun i : (⟨4, ![8, 192, 64, 64]⟩ : Shape).Idx =>
        Cert.Bottleneck.likShared (Cert.Bottleneck.chanOf a2 a3 a4 a5 a6 a7 a8 a9 a10 a11 a12 (i 1)) (a0 i + a1 i))
      = Cert.Bottleneck.Glik a0 a1 a2 a3 a4 a5 a6 a7 a8 a9 a10 a11 a12 := by
  obtain ⟨h0, h1, h2, h3⟩ := Cert.Bottleneck.Finite.first_four a0 a1 a2 a3 a4 a5 a6 a7 a8 a9 a10 a11 a12 h
  funext i
  refine Cert.Bottleneck.likShared_eq _ _ ?_ (fun o => ?_) (fun o => ?_)
  · obtain ⟨r0, e0⟩ := h0 i
    obtain ⟨r1, e1⟩ := h1 i
    exact ⟨r0 + r1, by rw [e0, e1, EReal.coe_add]⟩
  · obtain ⟨r, e⟩ := h2 (ix3 (n0 := 192) (i 1) o (0 : Fin 1))
    obtain ⟨s, es⟩ := Cert.Bottleneck.sp_coe r
    exact ⟨s, by show Cert.Bottleneck.sp (a2 (ix3 (n0 := 192) (i 1) o (0 : Fin 1))) = _; rw [e, es]⟩
  · exact h3 (ix3 (n0 := 192) (i 1) o (0 : Fin 1))

end Cert.Bottleneck.Bridge

end
-- ==== Proof.Claims.lean ====
/-
  The five claims. The three frames are the generated ones (the reference's is its generated run with the results
  dropped). The idealization ledger has one entry, the sign read off a float's sign bit, closed by the rule's own
  statement. The algebraic claim: from memories that agree on the thirteen arguments, the idealized kernel ends with
  x + noise and the shared-product likelihood, the idealized reference with x + noise and the direct likelihood; the
  two likelihoods are one function where the inputs are finite, which the precondition says.
-/
import proofs.«168000_j32736240730292_2_alg».proof.Defs
import proofs.«168000_j32736240730292_2_alg».proof.Proof.Gen.Kernel
import proofs.«168000_j32736240730292_2_alg».proof.Proof.Gen.Kernel.Frame
import proofs.«168000_j32736240730292_2_alg».proof.Proof.Gen.KernelIdeal
import proofs.«168000_j32736240730292_2_alg».proof.Proof.Gen.ReferenceIdeal
import proofs.«168000_j32736240730292_2_alg».proof.Proof.Gen.Pre_finite_inputs
import proofs.«168000_j32736240730292_2_alg».proof.Proof.Gen.ReferenceIdeal.Run
import proofs.«168000_j32736240730292_2_alg».proof.Proof.Gen.ReferenceIdeal.Read
import proofs.«168000_j32736240730292_2_alg».proof.Proof.KRun
import proofs.«168000_j32736240730292_2_alg».proof.Proof.RefValue
import proofs.«168000_j32736240730292_2_alg».proof.Proof.Bridge

set_option maxRecDepth 16384

noncomputable section

namespace Cert.Proof.Claims

open Idealize.ShloMosaic Idealize.ShloMosaic.TcCoe Idealize.SL.Sem Cert.Bottleneck

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The ledger's one entry: the rule's statement at the site's shape and format. -/
theorem preserves : Cert.preserves_Kernel_KernelIdeal := IdealRules.sign_bit.statement Cert.KernelIdeal.S8x8x4096 .f32

set_option maxHeartbeats 2000000 in
theorem algebraic : Cert.algebraic_KernelIdeal_ReferenceIdeal := by
  intro m ρ m' ρ' hpre hagree
  refine ⟨fun c => Gy (m ((c.tc : Thread Cert.KernelIdeal.nD Cert.KernelIdeal.τ).loc Cert.KernelIdeal.main_arg0)) (m ((c.tc : Thread Cert.KernelIdeal.nD Cert.KernelIdeal.τ).loc Cert.KernelIdeal.main_arg1)), fun c => Glik (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun _ h c =>
      ⟨(h c).1, (h c).2.1.trans (Cert.Bottleneck.Bridge.shared_eq _ _ _ _ _ _ _ _ _ _ _ _ _ (hpre c)), (h c).2.2⟩)
      (Cert.KernelIdeal.Run.run m ρ)
  · refine (θ_run Cert.ReferenceIdeal.defs _ _).mono (fun _ h c => ⟨?_, ?_, (h c).2.2⟩)
      (Cert.ReferenceIdeal.Value.run (F := Ideal) m' ρ')
    · obtain ⟨e0, e1, -⟩ := hagree c
      rw [(h c).1, e0, e1]
      rfl
    · obtain ⟨e0, e1, e2, e3, e4, e5, e6, e7, e8, e9, e10, e11, e12⟩ := hagree c
      rw [(h c).2.1, Cert.ReferenceIdeal.Read.val_main_v91_eq, Cert.ReferenceIdeal.RefValue.lik_eq,
        e0, e1, e2, e3, e4, e5, e6, e7, e8, e9, e10, e11, e12]

end Cert.Proof.Claims

end
-- ==== Proof.lean ====
/-
  The certificate of a per-channel factorized entropy model: y = x + noise over [8, 192, 64, 64], and for every entry
  the likelihood of y under its channel's chain of four small affine layers 1 → 3 → 3 → 3 → 1 (softplus weights, gated
  tanh residuals), evaluated at y − 1/2 and y + 1/2 and passed through a sign-stabilised difference of logistics with a
  floor. The kernel works on tiles of eight channels over the flattened 64 × 64 plane and shares the first layer's
  product between the two evaluations; the reference works channel-major on [192, 1, 32768] with one contraction per
  layer. On the extended reals the two are one function wherever the inputs are finite.
  The modules: Spec (the mathematics of one channel, and the law joining the two spellings of the first layer), Raw and
  Result (a channel's parameters read off the arrays; the results as whole-array functions), Layout (how a parameter
  column reaches an entry of a block), Body (the two output blocks entry by entry), Whole (from the 24 tiles to the
  arrays), Entry (the arrays the region finds, in terms of the arguments), KRun (the kernel's run, read), RefValue
  (the reference's results are the direct spelling), Finite and Bridge (finite inputs; the two spellings agree there),
  Claims (the five claims), assembled here behind the generated witnesses of the programs' stated facts.
-/
import proofs.«168000_j32736240730292_2_alg».proof.Defs
import proofs.«168000_j32736240730292_2_alg».proof.Proof.Gen.Kernel
import proofs.«168000_j32736240730292_2_alg».proof.Proof.Gen.Kernel.Skeleton
import proofs.«168000_j32736240730292_2_alg».proof.Proof.Gen.Kernel.Launch
import proofs.«168000_j32736240730292_2_alg».proof.Proof.Gen.Kernel.Points
import proofs.«168000_j32736240730292_2_alg».proof.Proof.Gen.Kernel.Frame
import proofs.«168000_j32736240730292_2_alg».proof.Proof.Gen.KernelIdeal
import proofs.«168000_j32736240730292_2_alg».proof.Proof.Gen.KernelIdeal.Skeleton
import proofs.«168000_j32736240730292_2_alg».proof.Proof.Gen.KernelIdeal.Launch
import proofs.«168000_j32736240730292_2_alg».proof.Proof.Gen.KernelIdeal.Points
import proofs.«168000_j32736240730292_2_alg».proof.Proof.Gen.KernelIdeal.Frame
import proofs.«168000_j32736240730292_2_alg».proof.Proof.Gen.ReferenceIdeal
import proofs.«168000_j32736240730292_2_alg».proof.Proof.Gen.Pre_finite_inputs
import proofs.«168000_j32736240730292_2_alg».proof.Proof.Gen.ReferenceIdeal.Run
import proofs.«168000_j32736240730292_2_alg».proof.Proof.Gen.ReferenceIdeal.Read
import proofs.«168000_j32736240730292_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
